-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x2048 .f32) (main_arg5 : FVec F S2048 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x512x2048 .f32) (main_arg1 : FVec F S2048x2048 .f32) (main_arg2 : FVec F S2048x16 .f32) (main_arg3 : FVec F S16x2048 .f32) (main_arg4 : FVec F S1x2048 .f32) (main_arg5 : FVec F S2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_v13 main_v16
-- ==== Kernel.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S4096x2048 : Shape := ⟨2, ![4096, 2048]⟩
abbrev S512x2048 : Shape := ⟨2, ![512, 2048]⟩
abbrev S16x512 : Shape := ⟨2, ![16, 512]⟩
abbrev S2048x512 : Shape := ⟨2, ![2048, 512]⟩
abbrev S512 : Shape := ⟨1, ![512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048x16, .f32⟩
  | .hbm, ⟨3, _⟩ => ⟨S16x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S8x512x2048, .f32⟩
  | .local _ .vmem, ⟨0, _⟩ => ⟨S2048x2048, .f32⟩
  | .local _ .vmem, ⟨1, _⟩ => ⟨S2048x16, .f32⟩
  | .local _ .vmem, ⟨2, _⟩ => ⟨S16x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x512x2048_S4096x2048 : S8x512x2048.ShapeCasts S4096x2048
  shapeCasts_S2048_S1x2048 : S2048.ShapeCasts S1x2048
  inb_S2048x16_S2048x16_0_0 : ∀ a, (![0, 0] : Fin 2 → Nat) a + S2048x16.size a ≤ S2048x16.size a
  h_S2048x16 : 0 < S2048x16.numel
  inb_S16x2048_S16x512_0_0 : ∀ a, (![0, 0] : Fin 2 → Nat) a + S16x512.size a ≤ S16x2048.size a
  h_S16x512 : 0 < S16x512.numel
  inb_S2048x2048_S2048x512_0_0 : ∀ a, (![0, 0] : Fin 2 → Nat) a + S2048x512.size a ≤ S2048x2048.size a
  h_S2048x512 : 0 < S2048x512.numel
  reduces_S2048x512_S512 : S2048x512.Reduces [0] S512
  shapeCasts_S512_S1x512 : S512.ShapeCasts S1x512
  inb_S1x2048_S1x512_0_0 : ∀ a, (![0, 0] : Fin 2 → Nat) a + S1x512.size a ≤ S1x2048.size a
  h_S1x512 : 0 < S1x512.numel
  broadcasts_S1x512_S2048x512 : S1x512.Broadcasts S2048x512
  bitsLt_bf16_f32 : FTy.bits .bf16 < FTy.bits .f32
  shapeCasts_S2048x512_S2048x512 : S2048x512.ShapeCasts S2048x512
  packedbf16_S2048x2048_S2048x512_0_0 : (Rect.unit (s := S2048x2048) ![0, 0] S2048x512.size inb_S2048x2048_S2048x512_0_0).PackedRows (EltTy.packing .bf16)
  inb_S16x2048_S16x512_0_512 : ∀ a, (![0, 512] : Fin 2 → Nat) a + S16x512.size a ≤ S16x2048.size a
  inb_S2048x2048_S2048x512_0_512 : ∀ a, (![0, 512] : Fin 2 → Nat) a + S2048x512.size a ≤ S2048x2048.size a
  inb_S1x2048_S1x512_0_512 : ∀ a, (![0, 512] : Fin 2 → Nat) a + S1x512.size a ≤ S1x2048.size a
  packedbf16_S2048x2048_S2048x512_0_512 : (Rect.unit (s := S2048x2048) ![0, 512] S2048x512.size inb_S2048x2048_S2048x512_0_512).PackedRows (EltTy.packing .bf16)
  inb_S16x2048_S16x512_0_1024 : ∀ a, (![0, 1024] : Fin 2 → Nat) a + S16x512.size a ≤ S16x2048.size a
  inb_S2048x2048_S2048x512_0_1024 : ∀ a, (![0, 1024] : Fin 2 → Nat) a + S2048x512.size a ≤ S2048x2048.size a
  inb_S1x2048_S1x512_0_1024 : ∀ a, (![0, 1024] : Fin 2 → Nat) a + S1x512.size a ≤ S1x2048.size a
  packedbf16_S2048x2048_S2048x512_0_1024 : (Rect.unit (s := S2048x2048) ![0, 1024] S2048x512.size inb_S2048x2048_S2048x512_0_1024).PackedRows (EltTy.packing .bf16)
  inb_S16x2048_S16x512_0_1536 : ∀ a, (![0, 1536] : Fin 2 → Nat) a + S16x512.size a ≤ S16x2048.size a
  inb_S2048x2048_S2048x512_0_1536 : ∀ a, (![0, 1536] : Fin 2 → Nat) a + S2048x512.size a ≤ S2048x2048.size a
  inb_S1x2048_S1x512_0_1536 : ∀ a, (![0, 1536] : Fin 2 → Nat) a + S1x512.size a ≤ S1x2048.size a
  packedbf16_S2048x2048_S2048x512_0_1536 : (Rect.unit (s := S2048x2048) ![0, 1536] S2048x512.size inb_S2048x2048_S2048x512_0_1536).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S8x512x2048 : S4096x2048.ShapeCasts S8x512x2048
  dot_S2048x16_S16x512_S2048x512_1_0_0_1_n_n_wf : DotDims.WF S2048x16 S16x512 S2048x512 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x2048.size a
  hwx0_6 : ∀ i : grid0.Coords, EltTy.bits .f32 = 32 ∨ (Rect.block (s := S4096x2048) S512x2048.size (cc0_transform_6 i) (hinb0_6 i)).WholeWords (EltTy.packing .f32)

variable [Facts₀]

def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S2048x2048 : Shape := ⟨2, ![2048, 2048]⟩
abbrev S2048x16 : Shape := ⟨2, ![2048, 16]⟩
abbrev S16x2048 : Shape := ⟨2, ![16, 2048]⟩
abbrev S1x2048 : Shape := ⟨2, ![1, 2048]⟩
abbrev S2048 : Shape := ⟨1, ![2048]⟩
abbrev S4096x2048 : Shape := ⟨2, ![4096, 2048]⟩
abbrev S2048x512 : Shape := ⟨2, ![2048, 512]⟩
abbrev S16x512 : Shape := ⟨2, ![16, 512]⟩
abbrev S1x512 : Shape := ⟨2, ![1, 512]⟩
abbrev S512 : Shape := ⟨1, ![512]⟩
abbrev S256x512 : Shape := ⟨2, ![256, 512]⟩
abbrev S1x256 : Shape := ⟨2, ![1, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048x16, .f32⟩
  | .hbm, ⟨3, _⟩ => ⟨S16x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S2048x2048, .f32⟩
  | .hbm, ⟨8, _⟩ => ⟨S1x2048, .f32⟩
  | .hbm, ⟨9, _⟩ => ⟨S4096x2048, .f32⟩
  | .hbm, ⟨10, _⟩ => ⟨S8x512x2048, .f32⟩
  | .local _ .vmem, ⟨0, _⟩ => ⟨S2048x512, .f32⟩
  | .local _ .vmem, ⟨1, _⟩ => ⟨S2048x512, .f32⟩
  | .local _ .vmem, ⟨2, _⟩ => ⟨S2048x16, .f32⟩
  | .local _ .vmem, ⟨3, _⟩ => ⟨S16x512, .f32⟩
  | .local _ .vmem, ⟨4, _⟩ => ⟨S16x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x512x2048_S4096x2048 : S8x512x2048.ShapeCasts S4096x2048
  inb_S2048x16_S2048x16_0_0 : ∀ a, (![0, 0] : Fin 2 → Nat) a + S2048x16.size a ≤ S2048x16.size a
  h_S2048x16 : 0 < S2048x16.numel
  inb_S16x512_S16x512_0_0 : ∀ a, (![0, 0] : Fin 2 → Nat) a + S16x512.size a ≤ S16x512.size a
  h_S16x512 : 0 < S16x512.numel
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  shapeCasts_S2048_S1x2048 : S2048.ShapeCasts S1x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S4096x2048_S8x512x2048 : S4096x2048.ShapeCasts S8x512x2048
  dot_S2048x16_S16x512_S2048x512_1_0_0_1_n_n_wf : DotDims.WF S2048x16 S16x512 S2048x512 [1] [0] [0] [1] [] []
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x2048.size a
  hwx0_0 : ∀ i : grid0.Coords, EltTy.bits .f32 = 32 ∨ (Rect.block (s := S2048x2048) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x2048.size a
  hwx0_2 : ∀ i : grid0.Coords, EltTy.bits .f32 = 32 ∨ (Rect.block (s := S16x2048) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .f32 = 32 ∨ (Rect.block (s := S2048x2048) S2048x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x2048.size a
  hwx1_0 : ∀ i : grid1.Coords, EltTy.bits .f32 = 32 ∨ (Rect.block (s := S4096x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S2048x2048.size a
  hwx1_1 : ∀ i : grid1.Coords, EltTy.bits .f32 = 32 ∨ (Rect.block (s := S2048x2048) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x2048.size a
  hwx1_3 : ∀ i : grid1.Coords, EltTy.bits .f32 = 32 ∨ (Rect.block (s := S4096x2048) S256x256.size (cc1_transform_3 i) (hinb1_3 i)).WholeWords (EltTy.packing .f32)

variable [Facts₀]

def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.KPieces.lean ====
/-
  What one run of the body leaves behind, as functions of the blocks it was given.

  At the first grid point the body fills the carried 2048×2048 buffer in four 2048×512 column panels (columns
  0–511, 512–1023, 1024–1535, 1536–2047), each panel computed from the matching columns of V, A and the magnitude
  row and from all of B; it then reads the whole buffer back and stores x_block · bufferᵀ + bias row into its output
  block.  At every later point it stores the same expression of the buffer as the point before left it, and leaves
  the buffer alone.
-/
import proofs.«151641_g2000709426913694_pallasbulk_956_15_alg».proof.Proof.Gen.KernelIdeal.Frame
import Idealize.ShloMosaic.Lib.Pipeline.Value
import Idealize.ShloMosaic.Lib.Tactic

set_option maxRecDepth 16384

noncomputable section

open scoped BigOperators

namespace Cert.KernelIdeal.KValue

open Idealize.ShloMosaic Idealize.ShloMosaic.TcCoe Idealize.SL.Sem
open Idealize.ShloMosaic.Pipeline (Dat)
open Idealize.ShloMosaic.Tactic
open Cert.KernelIdeal Cert.KernelIdeal.Gen

variable {F : FTy → Type} [FloatOps F]

/-- The zero offsets of a rank-two access, as the constant function. -/
theorem hz2 : (![0, 0] : Fin 2 → Nat) = fun _ => 0 := funext fun a => by fin_cases a <;> rfl

/-- The four column panels the first point stores into the carried buffer, last store first: each is the panel
    expression of the matching columns of V (x0), A (x2) and the magnitudes (x3), and of all of B (x1). -/
def panels (x0 : Vec F S2048x2048 .f32) (x1 : Vec F S2048x16 .f32) (x2 : Vec F S16x2048 .f32) (x3 : Vec F S1x2048 .f32) :
    List (View.Piece (Elt F) S2048x2048 .bf16) :=
  [ (⟨Rect.unit ![0, 1536] S2048x512.size inb_S2048x2048_S2048x512_0_1536,
      k0_pay2 x1 (View.ld x2 (Rect.unit ![0, 1536] S16x512.size inb_S16x2048_S16x512_0_1536))
        (View.ld x0 (Rect.unit ![0, 1536] S2048x512.size inb_S2048x2048_S2048x512_0_1536))
        (View.ld x3 (Rect.unit ![0, 1536] S1x512.size inb_S1x2048_S1x512_0_1536))⟩ : View.Piece (Elt F) S2048x2048 .bf16),
    (⟨Rect.unit ![0, 1024] S2048x512.size inb_S2048x2048_S2048x512_0_1024,
      k0_pay1 x1 (View.ld x2 (Rect.unit ![0, 1024] S16x512.size inb_S16x2048_S16x512_0_1024))
        (View.ld x0 (Rect.unit ![0, 1024] S2048x512.size inb_S2048x2048_S2048x512_0_1024))
        (View.ld x3 (Rect.unit ![0, 1024] S1x512.size inb_S1x2048_S1x512_0_1024))⟩ : View.Piece (Elt F) S2048x2048 .bf16),
    (⟨Rect.unit ![0, 512] S2048x512.size inb_S2048x2048_S2048x512_0_512,
      k0_pay5 x1 (View.ld x2 (Rect.unit ![0, 512] S16x512.size inb_S16x2048_S16x512_0_512))
        (View.ld x0 (Rect.unit ![0, 512] S2048x512.size inb_S2048x2048_S2048x512_0_512))
        (View.ld x3 (Rect.unit ![0, 512] S1x512.size inb_S1x2048_S1x512_0_512))⟩ : View.Piece (Elt F) S2048x2048 .bf16),
    (⟨Rect.unit ![0, 0] S2048x512.size inb_S2048x2048_S2048x512_0_0,
      k0_pay4 x1 (View.ld x2 (Rect.unit ![0, 0] S16x512.size inb_S16x2048_S16x512_0_0))
        (View.ld x0 (Rect.unit ![0, 0] S2048x512.size inb_S2048x2048_S2048x512_0_0))
        (View.ld x3 (Rect.unit ![0, 0] S1x512.size inb_S1x2048_S1x512_0_0))⟩ : View.Piece (Elt F) S2048x2048 .bf16) ]

/-- A later point: the output block is the layer expression of the x block (x4), the buffer as found (xs0) and the
    bias row (x5). -/
theorem out_B (c : Dev nD) (i : grid0.Coords) (arg1 : Memref sig .tc .vmem S2048x2048 .f32) (harg1 : arg1.IsWhole) (arg2 : Memref sig .tc .vmem S2048x16 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (hc0 : ¬cond0_0 i)
    (x0 : Vec F S2048x2048 .f32) (x1 : Vec F S2048x16 .f32) (x2 : Vec F S16x2048 .f32) (x3 : Vec F S1x2048 .f32) (x4 : Vec F S512x2048 .f32) (x5 : Vec F S1x2048 .f32) (xs0 : Vec F S2048x2048 .bf16) :
    out0_B_6 c i arg1 harg1 arg2 harg2 arg3 harg3 arg4 harg4 arg5 harg5 arg6 harg6 arg7 harg7 arg8 harg8 hc0 x0 x1 x2 x3 x4 x5 xs0 = k0_pay3 x4 xs0 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  rw [View.canon_unit_zero hz2]
  simp only [View.readAt_eq_ld, harg5.read_unread, harg8.read_unread, harg6.read_unread, View.ld_unit_zero (S := S512x2048) hz2, View.ld_unit_zero (S := S2048x2048) hz2, View.ld_unit_zero (S := S1x2048) hz2]

/-- The first point: the carried buffer ends as the four panels read back as one array. -/
theorem sout_A (c : Dev nD) (i : grid0.Coords) (arg1 : Memref sig .tc .vmem S2048x2048 .f32) (harg1 : arg1.IsWhole) (arg2 : Memref sig .tc .vmem S2048x16 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (hc0 : cond0_0 i)
    (x0 : Vec F S2048x2048 .f32) (x1 : Vec F S2048x16 .f32) (x2 : Vec F S16x2048 .f32) (x3 : Vec F S1x2048 .f32) (x4 : Vec F S512x2048 .f32) (x5 : Vec F S1x2048 .f32) :
    sout0_A_0 c i arg1 harg1 arg2 harg2 arg3 harg3 arg4 harg4 arg5 harg5 arg6 harg6 arg7 harg7 arg8 harg8 hc0 x0 x1 x2 x3 x4 x5 = View.canon (panels x0 x1 x2 x3) := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread,
    View.ld_unit_zero (S := S2048x16) hz2]
  rfl

/-- The first point: the output block is the layer expression of the x block, the buffer just filled, and the bias row. -/
theorem out_A (c : Dev nD) (i : grid0.Coords) (arg1 : Memref sig .tc .vmem S2048x2048 .f32) (harg1 : arg1.IsWhole) (arg2 : Memref sig .tc .vmem S2048x16 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (hc0 : cond0_0 i)
    (x0 : Vec F S2048x2048 .f32) (x1 : Vec F S2048x16 .f32) (x2 : Vec F S16x2048 .f32) (x3 : Vec F S1x2048 .f32) (x4 : Vec F S512x2048 .f32) (x5 : Vec F S1x2048 .f32) :
    out0_A_6 c i arg1 harg1 arg2 harg2 arg3 harg3 arg4 harg4 arg5 harg5 arg6 harg6 arg7 harg7 arg8 harg8 hc0 x0 x1 x2 x3 x4 x5 = k0_pay3 x4 (View.canon (panels x0 x1 x2 x3)) x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz2, View.readCov_eq_canon']
  simp only [View.readAt_eq_ld, harg1.read_unread, harg2.read_unread, harg3.read_unread, harg4.read_unread,
    harg5.read_unread, harg6.read_unread, View.ld_unit_zero (S := S2048x16) hz2, View.ld_unit_zero (S := S512x2048) hz2,
    View.ld_unit_zero (S := S1x2048) hz2]
  exact congrArg (fun z => k0_pay3 x4 z x5)
    (View.ld_unit_zero (S := S2048x2048) hz2 inb_S2048x2048_S2048x2048_0_0 (View.canon (panels x0 x1 x2 x3)))

end Cert.KernelIdeal.KValue

end
-- ==== Proof.Spec.lean ====
/-
  The mathematics both programs compute, over the extended reals.

  With V a 2048×2048 weight, B (2048×16) and A (16×2048) a low-rank correction, m a row of 2048 magnitudes,
  x a 4096×2048 array of inputs and b a row of 2048 offsets:

    V'(d, k) = V(d, k) + Σ_r B(d, r) · A(r, k)                       the corrected weight
    W(d, k)  = V'(d, k) · ( m(k) · rsqrt( Σ_d' V'(d', k)² ) )          each column rescaled to magnitude m(k)
    Y(i, d)  = ( Σ_k x(i, k) · W(d, k) ) + b(d)                         the linear layer with that weight

  The result is Y recast from 4096×2048 to 8×512×2048, of x recast the other way and b recast from a vector to a row.
-/
import Idealize.ShloMosaic.Lib.ValueIdx
import Idealize.ShloMosaic.PureOps.Ideal.Laws

noncomputable section

open scoped BigOperators

namespace Cert.Dora

open Idealize.ShloMosaic Idealize.ShloMosaic.ValueIdx

/-- The shapes, as literals. -/
abbrev SV : Shape := ⟨2, ![2048, 2048]⟩
abbrev SB : Shape := ⟨2, ![2048, 16]⟩
abbrev SA : Shape := ⟨2, ![16, 2048]⟩
abbrev SM : Shape := ⟨2, ![1, 2048]⟩
abbrev SX : Shape := ⟨2, ![4096, 2048]⟩
abbrev SX3 : Shape := ⟨3, ![8, 512, 2048]⟩
abbrev Sb : Shape := ⟨1, ![2048]⟩

/-- The corrected weight V'(d, k) = V(d, k) + Σ_r B(d, r) · A(r, k). -/
def vp (V : SV.Idx → EReal) (B : SB.Idx → EReal) (A : SA.Idx → EReal) (d k : Fin 2048) : EReal :=
  V (ix2 d k) + ∑ r : Fin 16, B (ix2 d r) * A (ix2 r k)

/-- The rescaled weight at (d, k): V'(d, k) · (m(k) · rsqrt(Σ_d' V'(d', k)²)). -/
def wAt (V : SV.Idx → EReal) (B : SB.Idx → EReal) (A : SA.Idx → EReal) (mr : SM.Idx → EReal) (d k : Fin 2048) : EReal :=
  vp V B A d k * (mr (ix2 0 k) * Ideal.rsqrt (∑ d' : Fin 2048, vp V B A d' k * vp V B A d' k))

/-- The rescaled weight as an array. -/
def W (V : SV.Idx → EReal) (B : SB.Idx → EReal) (A : SA.Idx → EReal) (mr : SM.Idx → EReal) : SV.Idx → EReal :=
  fun j => wAt V B A mr (j 0) (j 1)

/-- The layer's output at (i, d): (Σ_k x(i, k) · Wm(d, k)) + b(d). -/
def yAt (x : SX.Idx → EReal) (Wm : SV.Idx → EReal) (b : SM.Idx → EReal) (i : Fin 4096) (d : Fin 2048) : EReal :=
  (∑ k : Fin 2048, x (ix2 i k) * Wm (ix2 d k)) + b (ix2 0 d)

/-- The layer's output as an array. -/
def Y (x : SX.Idx → EReal) (Wm : SV.Idx → EReal) (b : SM.Idx → EReal) : SX.Idx → EReal :=
  fun j => yAt x Wm b (j 0) (j 1)

/-- The whole result: the layer applied to x recast to 4096×2048 and b recast to a row, recast to 8×512×2048. -/
def result (h0 : SX3.ShapeCasts SX) (h1 : Sb.ShapeCasts SM) (h2 : SX.ShapeCasts SX3)
    (x : SX3.Idx → EReal) (V : SV.Idx → EReal) (B : SB.Idx → EReal) (A : SA.Idx → EReal) (mr : SM.Idx → EReal)
    (bias : Sb.Idx → EReal) : SX3.Idx → EReal :=
  shapeCast SX3 (Y (shapeCast SX x h0) (W V B A mr) (shapeCast SM bias h1)) h2

end Cert.Dora

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Panel.lean ====
/-
  One 512-column panel of the rescaled weight, read at an entry.

  For a 2048×512 panel v of V, the matching 16×512 panel a of A, the whole 2048×16 matrix b and the 1×512 panel mr of
  the magnitudes, the vector unit forms v' = v + b·a, the column sums of squares s(k) = Σ_d v'(d, k)², the row of scales
  mr(k) · rsqrt(s(k)) spread over the 2048 rows, and the product v' · scale.  At entry (d, k) this is
  v'(d, k) · (mr(k) · rsqrt(Σ_d' v'(d', k)²)) with v'(d, k) = v(d, k) + Σ_r b(d, r) · a(r, k): the formula of the
  specification, with the panel's own columns.
-/
import Idealize.ShloMosaic.Lib.ValueIdx
import Idealize.ShloMosaic.Lib.ValueLayout
import Idealize.ShloMosaic.PureOps.Ideal.Laws
import proofs.«151641_g2000709426913694_pallasbulk_956_15_alg».proof.Proof.LibRowDot

noncomputable section

open scoped BigOperators

namespace Cert.Dora

open Idealize.ShloMosaic Idealize.ShloMosaic.ValueIdx

/-- The corrected panel v + b·a at (d, k). -/
theorem corrected_apply (v : FVec Ideal ⟨2, ![2048, 512]⟩ .f32) (b : FVec Ideal ⟨2, ![2048, 16]⟩ .f32)
    (a : FVec Ideal ⟨2, ![16, 512]⟩ .f32) (d : Fin 2048) (k : Fin 512) :
    addf v (matmul (DotDims.plain 2048 16 512) none b a (constant (F := Ideal) ⟨2, ![2048, 512]⟩ .f32 0x00000000#32)) (ix2 d k)
      = v (ix2 d k) + ∑ r : Fin 16, b (ix2 d r) * a (ix2 r k) := by
  show v (ix2 d k) + FloatOps.matmul (DotDims.plain 2048 16 512) none b a
      (constant (F := Ideal) ⟨2, ![2048, 512]⟩ .f32 0x00000000#32) (ix2 d k) = _
  rw [Cert.RowDot.matmul_plain_zero_apply]
  rfl

/-- The column sum of squares of a 2048×512 array at column k. -/
theorem colsumsq_apply (hred : (⟨2, ![2048, 512]⟩ : Shape).Reduces [0] ⟨1, ![512]⟩) (hφ : FKind.Formats .f32)
    (hacc : (0x00000000#32 : BitVec 32) = FKind.add.neutral .f32 hφ) (u : FVec Ideal ⟨2, ![2048, 512]⟩ .f32) (k : Fin 512) :
    multiReduction (F := Ideal) .add [0] ⟨1, ![512]⟩ (mulf u u) 0x00000000#32 hred hφ hacc (ix1 k)
      = ∑ d' : Fin 2048, u (ix2 d' k) * u (ix2 d' k) := by
  refine (Ideal.multiReduction_add_single (mulf u u) 0x00000000#32 hred hφ hacc (ix1 k)).trans ?_
  refine Finset.sum_congr rfl fun d' _ => ?_
  have e : hred.lift (ix1 k) d' = ix2 d' k := by
    funext ax; apply Fin.ext
    match ax with
    | ⟨0, _⟩ => rfl
    | ⟨1, _⟩ => rfl
  rw [e]
  rfl

/-- The panel of the rescaled weight at (d, k). -/
theorem panel_apply (hred : (⟨2, ![2048, 512]⟩ : Shape).Reduces [0] ⟨1, ![512]⟩) (hφ : FKind.Formats .f32)
    (hacc : (0x00000000#32 : BitVec 32) = FKind.add.neutral .f32 hφ)
    (hsc : (⟨1, ![512]⟩ : Shape).ShapeCasts ⟨2, ![1, 512]⟩) (hbc : (⟨2, ![1, 512]⟩ : Shape).Broadcasts ⟨2, ![2048, 512]⟩)
    (v : FVec Ideal ⟨2, ![2048, 512]⟩ .f32) (b : FVec Ideal ⟨2, ![2048, 16]⟩ .f32) (a : FVec Ideal ⟨2, ![16, 512]⟩ .f32)
    (mr : FVec Ideal ⟨2, ![1, 512]⟩ .f32) (d : Fin 2048) (k : Fin 512) :
    mulf (addf v (matmul (DotDims.plain 2048 16 512) none b a (constant (F := Ideal) ⟨2, ![2048, 512]⟩ .f32 0x00000000#32)))
        (broadcastTo ⟨2, ![2048, 512]⟩
          (mulf mr (rsqrt (shapeCast ⟨2, ![1, 512]⟩
            (multiReduction (F := Ideal) .add [0] ⟨1, ![512]⟩
              (mulf (addf v (matmul (DotDims.plain 2048 16 512) none b a (constant (F := Ideal) ⟨2, ![2048, 512]⟩ .f32 0x00000000#32)))
                    (addf v (matmul (DotDims.plain 2048 16 512) none b a (constant (F := Ideal) ⟨2, ![2048, 512]⟩ .f32 0x00000000#32))))
              0x00000000#32 hred hφ hacc) hsc))) hbc) (ix2 d k)
      = (v (ix2 d k) + ∑ r : Fin 16, b (ix2 d r) * a (ix2 r k))
          * (mr (ix2 0 k) * Ideal.rsqrt (∑ d' : Fin 2048,
              (v (ix2 d' k) + ∑ r : Fin 16, b (ix2 d' r) * a (ix2 r k)) * (v (ix2 d' k) + ∑ r : Fin 16, b (ix2 d' r) * a (ix2 r k)))) := by
  have e2 : broadcastTo ⟨2, ![2048, 512]⟩
          (mulf mr (rsqrt (shapeCast ⟨2, ![1, 512]⟩
            (multiReduction (F := Ideal) .add [0] ⟨1, ![512]⟩
              (mulf (addf v (matmul (DotDims.plain 2048 16 512) none b a (constant (F := Ideal) ⟨2, ![2048, 512]⟩ .f32 0x00000000#32)))
                    (addf v (matmul (DotDims.plain 2048 16 512) none b a (constant (F := Ideal) ⟨2, ![2048, 512]⟩ .f32 0x00000000#32))))
              0x00000000#32 hred hφ hacc) hsc))) hbc (ix2 d k)
        = mr (ix2 0 k) * Ideal.rsqrt (∑ d' : Fin 2048,
              (v (ix2 d' k) + ∑ r : Fin 16, b (ix2 d' r) * a (ix2 r k)) * (v (ix2 d' k) + ∑ r : Fin 16, b (ix2 d' r) * a (ix2 r k))) := by
    refine (broadcastTo_1b_ab_apply _ hbc d k).trans ?_
    refine congrArg (fun z => mr (ix2 0 k) * Ideal.rsqrt z) ?_
    refine (shapeCast_a_1a_apply _ hsc 0 k).trans ?_
    refine (colsumsq_apply hred hφ hacc _ k).trans ?_
    refine Finset.sum_congr rfl fun d' _ => ?_
    rw [corrected_apply]
  exact congrArg₂ (fun p q : EReal => p * q) (corrected_apply v b a d k) e2

end Cert.Dora

end
-- ==== Proof.KPanels.lean ====
/-
  The carried buffer after the first grid point is the rescaled weight W of the specification.

  Each of the four stored panels is, entry by entry, the specification's W(d, k) = V'(d, k) · (m(k) · rsqrt(Σ_d' V'(d', k)²))
  at the panel's own columns: column k of the panel that starts at column o is column o + k of V, A and the magnitude
  row, and the column sum of squares runs over all 2048 rows, which every panel holds.  The four panels tile the
  2048 columns, so read back together they are W.
-/
import proofs.«151641_g2000709426913694_pallasbulk_956_15_alg».proof.Proof.KPieces
import proofs.«151641_g2000709426913694_pallasbulk_956_15_alg».proof.Proof.Spec
import proofs.«151641_g2000709426913694_pallasbulk_956_15_alg».proof.Proof.Panel
import Idealize.ShloMosaic.Lib.ValueIdx
import Idealize.ShloMosaic.Lib.ValueLayout
import Idealize.ShloMosaic.Lib.Ring

set_option maxRecDepth 16384

noncomputable section

open scoped BigOperators

namespace Cert.KernelIdeal.KValue

open Idealize.ShloMosaic Idealize.ShloMosaic.TcCoe Idealize.SL.Sem
open Idealize.ShloMosaic.Pipeline (Dat)
open Idealize.ShloMosaic.Tactic
open Cert.KernelIdeal Cert.KernelIdeal.Gen
open Idealize.ShloMosaic.ValueIdx

/-- The panel expression `k0_pay4` at entry (d, k): the corrected entry times the column's scale. -/
theorem pay4_apply (b : FVec Ideal S2048x16 .f32) (a : FVec Ideal S16x512 .f32) (v : FVec Ideal S2048x512 .f32)
    (mr : FVec Ideal S1x512 .f32) (d : Fin 2048) (k : Fin 512) :
    k0_pay4 (F := Ideal) b a v mr (ix2 d k)
      = (v (ix2 d k) + ∑ r : Fin 16, b (ix2 d r) * a (ix2 r k))
        * (mr (ix2 0 k) * Ideal.rsqrt (∑ d' : Fin 2048,
            (v (ix2 d' k) + ∑ r : Fin 16, b (ix2 d' r) * a (ix2 r k)) * (v (ix2 d' k) + ∑ r : Fin 16, b (ix2 d' r) * a (ix2 r k)))) := by
  unfold k0_pay4
  exact (congrFun (shapeCast_self _ _) (ix2 d k)).trans
    (Cert.Dora.panel_apply reduces_S2048x512_S512 (.inl rfl) rfl shapeCasts_S512_S1x512 broadcasts_S1x512_S2048x512 v b a mr d k)

/-- The panel expression `k0_pay5` at entry (d, k): the corrected entry times the column's scale. -/
theorem pay5_apply (b : FVec Ideal S2048x16 .f32) (a : FVec Ideal S16x512 .f32) (v : FVec Ideal S2048x512 .f32)
    (mr : FVec Ideal S1x512 .f32) (d : Fin 2048) (k : Fin 512) :
    k0_pay5 (F := Ideal) b a v mr (ix2 d k)
      = (v (ix2 d k) + ∑ r : Fin 16, b (ix2 d r) * a (ix2 r k))
        * (mr (ix2 0 k) * Ideal.rsqrt (∑ d' : Fin 2048,
            (v (ix2 d' k) + ∑ r : Fin 16, b (ix2 d' r) * a (ix2 r k)) * (v (ix2 d' k) + ∑ r : Fin 16, b (ix2 d' r) * a (ix2 r k)))) := by
  unfold k0_pay5
  exact (congrFun (shapeCast_self _ _) (ix2 d k)).trans
    (Cert.Dora.panel_apply reduces_S2048x512_S512 (.inl rfl) rfl shapeCasts_S512_S1x512 broadcasts_S1x512_S2048x512 v b a mr d k)

/-- The panel expression `k0_pay1` at entry (d, k): the corrected entry times the column's scale. -/
theorem pay1_apply (b : FVec Ideal S2048x16 .f32) (a : FVec Ideal S16x512 .f32) (v : FVec Ideal S2048x512 .f32)
    (mr : FVec Ideal S1x512 .f32) (d : Fin 2048) (k : Fin 512) :
    k0_pay1 (F := Ideal) b a v mr (ix2 d k)
      = (v (ix2 d k) + ∑ r : Fin 16, b (ix2 d r) * a (ix2 r k))
        * (mr (ix2 0 k) * Ideal.rsqrt (∑ d' : Fin 2048,
            (v (ix2 d' k) + ∑ r : Fin 16, b (ix2 d' r) * a (ix2 r k)) * (v (ix2 d' k) + ∑ r : Fin 16, b (ix2 d' r) * a (ix2 r k)))) := by
  unfold k0_pay1
  exact (congrFun (shapeCast_self _ _) (ix2 d k)).trans
    (Cert.Dora.panel_apply reduces_S2048x512_S512 (.inl rfl) rfl shapeCasts_S512_S1x512 broadcasts_S1x512_S2048x512 v b a mr d k)

/-- The panel expression `k0_pay2` at entry (d, k): the corrected entry times the column's scale. -/
theorem pay2_apply (b : FVec Ideal S2048x16 .f32) (a : FVec Ideal S16x512 .f32) (v : FVec Ideal S2048x512 .f32)
    (mr : FVec Ideal S1x512 .f32) (d : Fin 2048) (k : Fin 512) :
    k0_pay2 (F := Ideal) b a v mr (ix2 d k)
      = (v (ix2 d k) + ∑ r : Fin 16, b (ix2 d r) * a (ix2 r k))
        * (mr (ix2 0 k) * Ideal.rsqrt (∑ d' : Fin 2048,
            (v (ix2 d' k) + ∑ r : Fin 16, b (ix2 d' r) * a (ix2 r k)) * (v (ix2 d' k) + ∑ r : Fin 16, b (ix2 d' r) * a (ix2 r k)))) := by
  unfold k0_pay2
  exact (congrFun (shapeCast_self _ _) (ix2 d k)).trans
    (Cert.Dora.panel_apply reduces_S2048x512_S512 (.inl rfl) rfl shapeCasts_S512_S1x512 broadcasts_S1x512_S2048x512 v b a mr d k)

/-- A panel that starts at column `o`, written over the matching columns of V (x0), A (x2) and the magnitudes (x3):
    at the panel's entry x it is W at the place the panel's rectangle puts x. -/
theorem panel_is_W (x0 : Vec Ideal S2048x2048 .f32) (x1 : Vec Ideal S2048x16 .f32) (x2 : Vec Ideal S16x2048 .f32)
    (x3 : Vec Ideal S1x2048 .f32) (o : ℕ)
    (inbA : ∀ a, (![0, o] : Fin 2 → Nat) a + S16x512.size a ≤ S16x2048.size a)
    (inbV : ∀ a, (![0, o] : Fin 2 → Nat) a + S2048x512.size a ≤ S2048x2048.size a)
    (inbM : ∀ a, (![0, o] : Fin 2 → Nat) a + S1x512.size a ≤ S1x2048.size a)
    (pay : Vec Ideal S2048x16 .f32 → Vec Ideal S16x512 .f32 → Vec Ideal S2048x512 .f32 → Vec Ideal S1x512 .f32 → FVec Ideal S2048x512 .bf16)
    (hpay : ∀ (b : FVec Ideal S2048x16 .f32) (a : FVec Ideal S16x512 .f32) (v : FVec Ideal S2048x512 .f32) (mr : FVec Ideal S1x512 .f32)
      (d : Fin 2048) (k : Fin 512), pay b a v mr (ix2 d k)
        = (v (ix2 d k) + ∑ r : Fin 16, b (ix2 d r) * a (ix2 r k))
        * (mr (ix2 0 k) * Ideal.rsqrt (∑ d' : Fin 2048,
            (v (ix2 d' k) + ∑ r : Fin 16, b (ix2 d' r) * a (ix2 r k)) * (v (ix2 d' k) + ∑ r : Fin 16, b (ix2 d' r) * a (ix2 r k)))))
    (x : S2048x512.Idx) :
    pay x1 (View.ld (Val := Elt Ideal) (e' := .f32) x2 (Rect.unit (s := S16x2048) ![0, o] S16x512.size inbA)) (View.ld (Val := Elt Ideal) (e' := .f32) x0 (Rect.unit (s := S2048x2048) ![0, o] S2048x512.size inbV))
        (View.ld (Val := Elt Ideal) (e' := .f32) x3 (Rect.unit (s := S1x2048) ![0, o] S1x512.size inbM)) x
      = Cert.Dora.W x0 x1 x2 x3 ((Rect.unit (s := S2048x2048) ![0, o] S2048x512.size inbV).emb x) := by
  obtain ⟨d, k, rfl⟩ : ∃ (d : Fin 2048) (k : Fin 512), x = ix2 d k := ⟨x 0, x 1, eq_ix2 x⟩
  have hk : o + k.val < 2048 := by have h1 := inbV 1; have := k.isLt; simp at h1; omega
  have hV : ∀ d' : Fin 2048, (View.ld (Val := Elt Ideal) (e' := .f32) x0 (Rect.unit (s := S2048x2048) ![0, o] S2048x512.size inbV)) (ix2 d' k) = x0 (ix2 d' ⟨o + k.val, hk⟩) := fun d' =>
    congrArg x0 (funext fun ax => Fin.ext (by
      match ax with
      | ⟨0, _⟩ => show 0 + 1 * d'.val = d'.val; omega
      | ⟨1, _⟩ => show o + 1 * k.val = o + k.val; omega))
  have hA : ∀ r : Fin 16, (View.ld (Val := Elt Ideal) (e' := .f32) x2 (Rect.unit (s := S16x2048) ![0, o] S16x512.size inbA)) (ix2 r k) = x2 (ix2 r ⟨o + k.val, hk⟩) := fun r =>
    congrArg x2 (funext fun ax => Fin.ext (by
      match ax with
      | ⟨0, _⟩ => show 0 + 1 * r.val = r.val; omega
      | ⟨1, _⟩ => show o + 1 * k.val = o + k.val; omega))
  have hM : (View.ld (Val := Elt Ideal) (e' := .f32) x3 (Rect.unit (s := S1x2048) ![0, o] S1x512.size inbM)) (ix2 0 k) = x3 (ix2 0 ⟨o + k.val, hk⟩) :=
    congrArg x3 (funext fun ax => Fin.ext (by
      match ax with
      | ⟨0, _⟩ => show 0 + 1 * 0 = 0; omega
      | ⟨1, _⟩ => show o + 1 * k.val = o + k.val; omega))
  have hE : (Rect.unit (s := S2048x2048) ![0, o] S2048x512.size inbV).emb (ix2 d k) = ix2 d ⟨o + k.val, hk⟩ :=
    funext fun ax => Fin.ext (by
      match ax with
      | ⟨0, _⟩ => show 0 + 1 * d.val = d.val; omega
      | ⟨1, _⟩ => show o + 1 * k.val = o + k.val; omega)
  rw [hpay, hE]
  simp only [hV, hA, hM]
  rfl

/-- Every one of the four panels is W under its rectangle. -/
theorem panels_are_W (x0 : Vec Ideal S2048x2048 .f32) (x1 : Vec Ideal S2048x16 .f32) (x2 : Vec Ideal S16x2048 .f32)
    (x3 : Vec Ideal S1x2048 .f32) :
    ∀ p ∈ panels (F := Ideal) x0 x1 x2 x3, ∀ x : p.1.shape.Idx, p.2 x = Cert.Dora.W x0 x1 x2 x3 (p.1.emb x) := by
  unfold panels
  intro p hp
  rcases List.mem_cons.mp hp with rfl | hp
  · exact panel_is_W x0 x1 x2 x3 1536 inb_S16x2048_S16x512_0_1536 inb_S2048x2048_S2048x512_0_1536 inb_S1x2048_S1x512_0_1536 (k0_pay2 (F := Ideal)) pay2_apply
  rcases List.mem_cons.mp hp with rfl | hp
  · exact panel_is_W x0 x1 x2 x3 1024 inb_S16x2048_S16x512_0_1024 inb_S2048x2048_S2048x512_0_1024 inb_S1x2048_S1x512_0_1024 (k0_pay1 (F := Ideal)) pay1_apply
  rcases List.mem_cons.mp hp with rfl | hp
  · exact panel_is_W x0 x1 x2 x3 512 inb_S16x2048_S16x512_0_512 inb_S2048x2048_S2048x512_0_512 inb_S1x2048_S1x512_0_512 (k0_pay5 (F := Ideal)) pay5_apply
  rcases List.mem_cons.mp hp with rfl | hp
  · exact panel_is_W x0 x1 x2 x3 0 inb_S16x2048_S16x512_0_0 inb_S2048x2048_S2048x512_0_0 inb_S1x2048_S1x512_0_0 (k0_pay4 (F := Ideal)) pay4_apply
  exact absurd hp List.not_mem_nil

/-- The four panels tile the 2048 columns: every place of the buffer is under one of them. -/
theorem panels_cover (x0 : Vec Ideal S2048x2048 .f32) (x1 : Vec Ideal S2048x16 .f32) (x2 : Vec Ideal S16x2048 .f32)
    (x3 : Vec Ideal S1x2048 .f32) (y : S2048x2048.Idx) : ∃ p ∈ panels (F := Ideal) x0 x1 x2 x3, y ∈ p.1.set :=
  View.cover_of_tiledL (panels (F := Ideal) x0 x1 x2 x3) S2048x512.size (by unfold panels; sl_kernel_rfl) y

/-- The four panels read back as one array are W. -/
theorem canon_panels (x0 : Vec Ideal S2048x2048 .f32) (x1 : Vec Ideal S2048x16 .f32) (x2 : Vec Ideal S16x2048 .f32)
    (x3 : Vec Ideal S1x2048 .f32) :
    View.canon (panels (F := Ideal) x0 x1 x2 x3) = Cert.Dora.W x0 x1 x2 x3 :=
  funext fun y => View.canon_apply_of_pieces (Cert.Dora.W x0 x1 x2 x3) (panels (F := Ideal) x0 x1 x2 x3) (panels_are_W x0 x1 x2 x3) y
    (panels_cover x0 x1 x2 x3 y)

end Cert.KernelIdeal.KValue

end
-- ==== Proof.KInv.lean ====
/-
  What the grid leaves behind, point by point.

  The carried buffer is written at the first grid point only, from V, B, A and the magnitude row, whose windows never
  move: so after the first point it holds the rescaled weight W of the whole arrays, and every later point finds it
  so and leaves it so.  Every point's output block is therefore the layer expression of that point's block of x, of W,
  and of the bias row.  By induction on the grid point.
-/
import proofs.«151641_g2000709426913694_pallasbulk_956_15_alg».proof.Proof.KPanels

set_option maxRecDepth 16384

noncomputable section

open scoped BigOperators

namespace Cert.KernelIdeal.KValue

open Idealize.ShloMosaic Idealize.ShloMosaic.TcCoe Idealize.SL.Sem
open Idealize.ShloMosaic.Pipeline (Dat)
open Idealize.ShloMosaic.Tactic
open Cert.KernelIdeal Cert.KernelIdeal.Gen
open Idealize.ShloMosaic.ValueIdx

variable (m : (ℓ : Loc nD τ sig) → Buf (Elt Ideal) ℓ)

/-- The rescaled weight of the arrays the region finds: V, B, A and the magnitude row. -/
abbrev Wm (c : Dev nD) : Vec Ideal S2048x2048 .bf16 :=
  Cert.Dora.W (V m c main_arg1) (V m c main_arg2) (V m c main_arg3) (V m c main_arg4)

/-- The windows of V, B, A and the magnitudes sit at block (0, 0) at every grid point. -/
theorem whole_index : ∀ t : Fin cfg0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0) :=
  (by decide +kernel : ∀ t : Fin grid0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0))

/-- Window 0 is never moved: its block at every point is the whole array. -/
theorem iblk0 (c : Dev nD) (t : Fin cfg0.N) : (iblk m c 0 t : Vec Ideal S2048x2048 .f32) = V m c main_arg1 := by
  funext j
  unfold iblk
  rw [View.read_apply]
  show V m c main_arg1 _ = V m c main_arg1 j
  congr 1
  funext a
  apply Fin.ext
  match a with
  | ⟨0, _⟩ => show win0_0.index t 0 * 2048 + 1 * (j 0).val = (j 0).val; rw [(whole_index t).1.1]; omega
  | ⟨1, _⟩ => show win0_0.index t 1 * 2048 + 1 * (j 1).val = (j 1).val; rw [(whole_index t).1.2]; omega

/-- Window 1 is never moved: its block at every point is the whole array. -/
theorem iblk1 (c : Dev nD) (t : Fin cfg0.N) : (iblk m c 1 t : Vec Ideal S2048x16 .f32) = V m c main_arg2 := by
  funext j
  unfold iblk
  rw [View.read_apply]
  show V m c main_arg2 _ = V m c main_arg2 j
  congr 1
  funext a
  apply Fin.ext
  match a with
  | ⟨0, _⟩ => show win0_1.index t 0 * 2048 + 1 * (j 0).val = (j 0).val; rw [(whole_index t).2.1.1]; omega
  | ⟨1, _⟩ => show win0_1.index t 1 * 16 + 1 * (j 1).val = (j 1).val; rw [(whole_index t).2.1.2]; omega

/-- Window 2 is never moved: its block at every point is the whole array. -/
theorem iblk2 (c : Dev nD) (t : Fin cfg0.N) : (iblk m c 2 t : Vec Ideal S16x2048 .f32) = V m c main_arg3 := by
  funext j
  unfold iblk
  rw [View.read_apply]
  show V m c main_arg3 _ = V m c main_arg3 j
  congr 1
  funext a
  apply Fin.ext
  match a with
  | ⟨0, _⟩ => show win0_2.index t 0 * 16 + 1 * (j 0).val = (j 0).val; rw [(whole_index t).2.2.1.1]; omega
  | ⟨1, _⟩ => show win0_2.index t 1 * 2048 + 1 * (j 1).val = (j 1).val; rw [(whole_index t).2.2.1.2]; omega

/-- Window 3 is never moved: its block at every point is the whole array. -/
theorem iblk3 (c : Dev nD) (t : Fin cfg0.N) : (iblk m c 3 t : Vec Ideal S1x2048 .f32) = V m c main_arg4 := by
  funext j
  unfold iblk
  rw [View.read_apply]
  show V m c main_arg4 _ = V m c main_arg4 j
  congr 1
  funext a
  apply Fin.ext
  match a with
  | ⟨0, _⟩ => show win0_3.index t 0 * 1 + 1 * (j 0).val = (j 0).val; rw [(whole_index t).2.2.2.1]; omega
  | ⟨1, _⟩ => show win0_3.index t 1 * 2048 + 1 * (j 1).val = (j 1).val; rw [(whole_index t).2.2.2.2]; omega

/-- After every grid point: the output block is the layer expression of the point's x block, W and the bias row,
    and the carried buffer is W. -/
theorem outsAt_eq (c : Dev nD) : ∀ (n : ℕ) (h : n < cfg0.N),
    outsAt0 m c n h = (k0_pay3 (F := Ideal) (iblk m c 4 ⟨n, h⟩) (Wm m c) (iblk m c 5 ⟨n, h⟩), Wm m c)
  | 0, h => by
    refine (outsAt0_A m c ⟨0, h⟩ rfl).trans ?_
    rw [out_A, sout_A, iblk0, iblk1, iblk2, iblk3, canon_panels]
  | n + 1, h => by
    have hN : cfg0.N = 8 := N_0
    have hB : ¬(⟨n + 1, h⟩ : Fin cfg0.N).val % 8 = 0 := by dsimp only; omega
    rw [outsAt0_B m c ⟨n + 1, h⟩ hB, out_B]
    unfold sout0_B_0
    show (k0_pay3 _ (outsAt0 m c n _).2 _, (outsAt0 m c n _).2) = _
    rw [outsAt_eq c n]

/-- The carried buffer after every point is W. -/
theorem scratch_eq (c : Dev nD) (n : ℕ) (hn : n < cfg0.N) : (outsAt0 m c n hn).2 = Wm m c := by
  rw [outsAt_eq]

/-- The output block at every point is the layer expression of the point's x block, W and the bias row. -/
theorem out_eq (c : Dev nD) (t : Fin cfg0.N) :
    (outsAt0 m c t.val t.isLt).1 = k0_pay3 (F := Ideal) (iblk m c 4 t) (Wm m c) (iblk m c 5 t) := by
  rw [outsAt_eq]

end Cert.KernelIdeal.KValue

end
-- ==== Proof.LibRowsDot.lean ====
/-
  Rows against rows: the product of an M×K matrix with an N×K matrix, both contracted on their last axis.

  Entry (a, b) of such a product is the accumulator's entry plus Σ_c A(a, c) · B(b, c) — row a of the left operand
  against row b of the right one.  Read at the exact values (floats as extended reals), for the vector unit's product
  into an arbitrary accumulator and into the zero accumulator, where the sum stands alone.
-/
import Idealize.ShloMosaic.Lib.ValueIdx
import Idealize.ShloMosaic.PureOps.Ideal.Laws

noncomputable section

open scoped BigOperators

namespace Cert.RowsDot

open Idealize.ShloMosaic Idealize.ShloMosaic.ValueIdx

variable {m k n : Nat} {φ₁ φ₂ : FTy}

/-- The dimension numbers "contract the last axis of both operands", over any evidence of their well-formedness. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand is read at (a, c): its row is the output's row, its column the contracted position. -/
theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

/-- The right operand is read at (b, c): its row is the output's column, its column the contracted position. -/
theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- Into any accumulator: entry (a, b) is the accumulator's plus Σ_c A(a, c) · B(b, c). -/
theorem matmul_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (acc : FVec Ideal ⟨2, ![m, n]⟩ .f32) (a : Fin m) (b : Fin n) :
    FloatOps.matmul (dims w) prec A B acc (ix2 a b) = acc (ix2 a b) + ∑ c : Fin k, A (ix2 a c) * B (ix2 b c) := by
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- Into the zero accumulator: entry (a, b) is Σ_c A(a, c) · B(b, c). -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (dims w) k rfl rfl).symm]
  refine Finset.sum_congr rfl fun c _ => ?_
  rw [lhsIdx_eq, rhsIdx_eq]

end Cert.RowsDot

end
-- ==== Proof.KOut.lean ====
/-
  One block of the layer's output, read at an entry.

  A grid point holds a 512×2048 block x of the inputs, the whole 2048×2048 rescaled weight Wm and the 1×2048 row b of
  offsets, and stores x · Wmᵀ + b: the product contracts the last axis of both operands, so entry (p, d) is row p of x
  against row d of Wm, Σ_k x(p, k) · Wm(d, k), and the row of offsets, spread over the 512 rows, adds b(d). On exact
  values the narrowing of x before the product and the recasts of x and b to their own shapes change nothing.
-/
import Idealize.ShloMosaic.Lib.ValueIdx
import Idealize.ShloMosaic.Lib.ValueLayout
import Idealize.ShloMosaic.Lib.Pipeline.Value
import Idealize.ShloMosaic.PureOps.Ideal.Laws
import proofs.«151641_g2000709426913694_pallasbulk_956_15_alg».proof.Proof.LibRowsDot
import proofs.«151641_g2000709426913694_pallasbulk_956_15_alg».proof.Proof.Gen.KernelIdeal.Skeleton

noncomputable section

open scoped BigOperators

namespace Cert.KernelIdeal.KValue

open Idealize.ShloMosaic Idealize.ShloMosaic.ValueIdx
open Cert.KernelIdeal

/-- The stored block at (p, d): row p of x against row d of the weight, plus the offset of column d. The recast of x to
    its own shape and its narrowing are the identity on exact values; the product is into a zero accumulator, so the sum
    stands alone; the one row of offsets is read at column d whatever the row p. -/
theorem out_apply (x : Vec Ideal S512x2048 .f32) (Wm : Vec Ideal S2048x2048 .bf16) (b : Vec Ideal S1x2048 .f32)
    (p : Fin 512) (d : Fin 2048) :
    Gen.k0_pay3 (F := Ideal) x Wm b (ix2 p d) = (∑ k : Fin 2048, x (ix2 p k) * Wm (ix2 d k)) + b (ix2 0 d) := by
  unfold Gen.k0_pay3
  refine (addf_apply _ _ _).trans ?_
  refine congrArg₂ (fun u v : EReal => u + v) ?_ ?_
  · refine (Cert.RowsDot.matmul_zero_apply Gen.dot_S512x2048_S2048x2048_S512x2048_1_1_0_0_n_n_wf none
      (truncf .bf16 (shapeCast S512x2048 x Gen.shapeCasts_S512x2048_S512x2048) Gen.bitsLt_bf16_f32) Wm p d).trans ?_
    refine Finset.sum_congr rfl fun k _ => ?_
    exact congrArg (fun u : EReal => u * Wm (ix2 d k)) (congrFun (shapeCast_self x Gen.shapeCasts_S512x2048_S512x2048) (ix2 p k))
  · exact (broadcastTo_1b_ab_apply _ Gen.broadcasts_S1x2048_S512x2048 p d).trans
      (congrFun (shapeCast_self b Gen.shapeCasts_S1x2048_S1x2048) (ix2 0 d))

end Cert.KernelIdeal.KValue

end
-- ==== Proof.KHost.lean ====
/-
  The recasts around the grid.

  Before the grid the program recasts x from 8×512×2048 to 4096×2048 and the bias from a vector of 2048 to a 1×2048
  row; V, B, A and the magnitude row reach the grid untouched.  After the grid it recasts the 4096×2048 result to
  8×512×2048.  So the two recast arrays the grid finds are those recasts of the arguments, and the program's result
  is the recast of whatever the grid left in its result array; the arguments themselves end as they began.
-/
import proofs.«151641_g2000709426913694_pallasbulk_956_15_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

open scoped BigOperators

namespace Cert.KernelIdeal.KValue

open Idealize.ShloMosaic Idealize.ShloMosaic.TcCoe Idealize.SL.Sem
open Idealize.ShloMosaic.Pipeline (Dat)
open Idealize.ShloMosaic.Tactic
open Cert.KernelIdeal Cert.KernelIdeal.Gen
open Idealize.ShloMosaic.StableHlo

variable (m : (ℓ : Loc nD τ sig) → Buf (Elt Ideal) ℓ)

/-- The grid finds x recast to 4096×2048. -/
theorem V_main_v0 (c : Dev nD) :
    V m c main_v0 = shapeCast S4096x2048 (m ((c.tc : Thread nD τ).loc main_arg0)) Facts₀.shapeCasts_S8x512x2048_S4096x2048 := by
  show StableHlo.after hostOps0 (fun b => m (c, b)) (Proc.devRef .tc main_v0) = _
  after_results
  rfl

/-- The grid finds the bias recast to a 1×2048 row. -/
theorem V_main_v1 (c : Dev nD) :
    V m c main_v1 = shapeCast S1x2048 (m ((c.tc : Thread nD τ).loc main_arg5)) Facts₀.shapeCasts_S2048_S1x2048 := by
  show StableHlo.after hostOps0 (fun b => m (c, b)) (Proc.devRef .tc main_v1) = _
  after_results
  rfl

/-- The program's result is the grid's result array recast to 8×512×2048. -/
theorem tail_eq (c : Dev nD) :
    Pipeline.afterTail₀ cfgs (dats m) 0 (V0 m) [hostOps1] c main_v3
      = shapeCast S8x512x2048 ((dats m 0 c).arrAt 6 cfg0.N) Facts₀.shapeCasts_S4096x2048_S8x512x2048 := by
  unfold Pipeline.afterTail₀
  show StableHlo.after hostOps1 _ (Proc.devRef .tc main_v3) = _
  after_results
  rw [Pipeline.withArrays_arr spec0 launch0.win.arr_inj c _ _ 6]
  rfl

/-- The run, with everything but the value of the grid's result array spelled out: the result is that array recast,
    and the six arguments end as they began. -/
theorem run_post (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = shapeCast S8x512x2048 ((dats m 0 c).arrAt 6 cfg0.N) Facts₀.shapeCasts_S4096x2048_S8x512x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.KValue

end
-- ==== Proof.KValue.lean ====
/-
  The layer, read: after the eight grid points the program's result is the specification's.

  Point t holds rows 512·t … 512·t + 511 of the 4096×2048 inputs, the whole rescaled weight W (carried from the first
  point on) and the row of offsets, and stores the 512×2048 block x_t · Wᵀ + b, which is written back to rows
  512·t … 512·t + 511 of the output. Entry (p, d) of that block is Σ_k x(512·t + p, k) · W(d, k) + b(d): the layer's
  output Y at (512·t + p, d). Row r of the output lies in the block of point r / 512, and every point writes its block
  back, so the eight blocks cover the array, which ends holding Y of the inputs, W and the offsets as the grid found them.
  The grid found the inputs and the offsets recast from the program's arguments and the other four arguments untouched,
  and the program's result is the output recast to 8×512×2048: the specification's result of the six arguments.
-/
import proofs.«151641_g2000709426913694_pallasbulk_956_15_alg».proof.Proof.KInv
import proofs.«151641_g2000709426913694_pallasbulk_956_15_alg».proof.Proof.KOut
import proofs.«151641_g2000709426913694_pallasbulk_956_15_alg».proof.Proof.KHost
import Idealize.ShloMosaic.Lib.Pipeline.Value
import Idealize.ShloMosaic.Lib.ValueIdx

set_option maxRecDepth 16384

noncomputable section

open scoped BigOperators

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## Where the moving windows' blocks sit in their arrays -/

/-- The block indices over the eight points: the inputs' window and the output's sit at block (t, 0), the offsets' row
    at block (0, 0); and there are eight points. -/
theorem idx_facts : ∀ t : Fin cfg0.N,
    win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 8 :=
  (by decide +kernel : ∀ t : Fin grid0.N, _)

/-- Row p of point t's block is row 512·t + p of the array. -/
def row (t : Fin cfg0.N) (p : Fin 512) : Fin 4096 :=
  ⟨t.val * 512 + p.val, by have := (idx_facts t).2.2.2.2.2.2; have := p.isLt; omega⟩

variable (m : (ℓ : Loc nD τ sig) → Buf (Elt Ideal) ℓ)

/-- The inputs' block at point t is rows 512·t … 512·t + 511 of the 4096×2048 inputs. -/
theorem iblk4_apply (c : Dev nD) (t : Fin cfg0.N) (p : Fin 512) (k : Fin 2048) :
    iblk m c 4 t (ix2 p k) = V m c main_v0 (ix2 (row t p) k) := by
  show V m c main_v0 (((cfg0.win 4).blk t).view.emb (ix2 p k)) = V m c main_v0 (ix2 (row t p) k)
  refine congrArg (V m c main_v0) ?_
  obtain ⟨e0, e1, -⟩ := idx_facts t
  funext a; apply Fin.ext
  match a with
  | ⟨0, _⟩ => show win0_4.index t (0 : Fin 2) * 512 + 1 * p.val = t.val * 512 + p.val; omega
  | ⟨1, _⟩ => show win0_4.index t (1 : Fin 2) * 2048 + 1 * k.val = k.val; omega

/-- The offsets' block at every point is the whole row. -/
theorem iblk5_apply (c : Dev nD) (t : Fin cfg0.N) (z : Fin 1) (d : Fin 2048) :
    iblk m c 5 t (ix2 z d) = V m c main_v1 (ix2 z d) := by
  show V m c main_v1 (((cfg0.win 5).blk t).view.emb (ix2 z d)) = V m c main_v1 (ix2 z d)
  refine congrArg (V m c main_v1) ?_
  obtain ⟨-, -, e0, e1, -⟩ := idx_facts t
  funext a; apply Fin.ext
  match a with
  | ⟨0, _⟩ => show win0_5.index t (0 : Fin 2) * 1 + 1 * z.val = z.val; omega
  | ⟨1, _⟩ => show win0_5.index t (1 : Fin 2) * 2048 + 1 * d.val = d.val; omega

/-- Entry (p, d) of the output's block at point t is entry (512·t + p, d) of the array. -/
theorem emb6 (t : Fin cfg0.N) (p : Fin 512) (d : Fin 2048) :
    ((cfg0.win 6).blk t).view.emb (ix2 p d) = ix2 (row t p) d := by
  obtain ⟨-, -, -, -, e0, e1, -⟩ := idx_facts t
  funext a; apply Fin.ext
  match a with
  | ⟨0, _⟩ => show win0_6.index t (0 : Fin 2) * 512 + 1 * p.val = t.val * 512 + p.val; omega
  | ⟨1, _⟩ => show win0_6.index t (1 : Fin 2) * 2048 + 1 * d.val = d.val; omega

/-! ## What each point writes back -/

/-- The block point t stores, at (p, d), is the layer's output at (512·t + p, d). -/
theorem block_eq (c : Dev nD) (t : Fin cfg0.N) (p : Fin 512) (d : Fin 2048) :
    k0_pay3 (F := Ideal) (iblk m c 4 t) (Wm m c) (iblk m c 5 t) (ix2 p d)
      = Cert.Dora.yAt (V m c main_v0) (Wm m c) (V m c main_v1) (row t p) d := by
  refine (out_apply (iblk m c 4 t) (Wm m c) (iblk m c 5 t) p d).trans ?_
  unfold Cert.Dora.yAt
  simp only [iblk4_apply, iblk5_apply]

/-- The block of point t as a function on the block's indices: at each index, the layer's output at the index's place
    in the array. -/
theorem block_fun (c : Dev nD) (t : Fin cfg0.N) :
    (k0_pay3 (F := Ideal) (iblk m c 4 t) (Wm m c) (iblk m c 5 t) : S512x2048.Idx → EReal)
      = fun j : S512x2048.Idx => Cert.Dora.Y (V m c main_v0) (Wm m c) (V m c main_v1) (((cfg0.win 6).blk t).view.emb j) := by
  funext j
  obtain ⟨p, d, rfl⟩ : ∃ (p : Fin 512) (d : Fin 2048), j = ix2 p d := ⟨j 0, j 1, eq_ix2 j⟩
  exact (block_eq m c t p d).trans
    (congrArg (Cert.Dora.Y (V m c main_v0) (Wm m c) (V m c main_v1)) (emb6 t p d)).symm

/-- What point t writes back is block t of the layer's output of the arrays as the region finds them. -/
theorem flushed6_eq (c : Dev nD) (t : Fin cfg0.N) :
    (dats m 0 c).flushed 6 t
      = ((cfg0.win 6).blk t).view.read (Elt Ideal) (Cert.Dora.Y (V m c main_v0) (Wm m c) (V m c main_v1)) := by
  show (cfg0.win 6).cut (grid0.coords t) ((dats m 0 c).after 6 t) = _
  rw [after0_6, out_eq]
  exact block_fun m c t

/-! ## The blocks cover the array -/

/-- An index of the array is in point t's block iff each coordinate is in the block's range on its axis. -/
theorem mem_blk6 (t : Fin cfg0.N) (i : S4096x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v2).slice (win0_6.rect t)).set ↔ _
  rw [View.set_slice_whole, Rect.mem_set_unit]
  exact Iff.rfl

/-- Row r of the array lies in the block of point r / 512, and every point writes its block back. -/
theorem cover6 (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  have hN : (i 0).val / 512 < cfg0.N := by show _ < grid0.N; rw [N_0]; omega
  refine ⟨⟨(i 0).val / 512, hN⟩, flush0_6 _, ?_⟩
  rw [mem_blk6]
  obtain ⟨-, -, -, -, e0, e1, -⟩ := idx_facts ⟨(i 0).val / 512, hN⟩
  have e0' : win0_6.index ⟨(i 0).val / 512, hN⟩ (0 : Fin 2) = (i 0).val / 512 := e0
  intro a
  match a with
  | ⟨0, _⟩ => show win0_6.index ⟨(i 0).val / 512, hN⟩ (0 : Fin 2) * 512 ≤ (i 0).val ∧ (i 0).val < win0_6.index ⟨(i 0).val / 512, hN⟩ (0 : Fin 2) * 512 + 512; omega
  | ⟨1, _⟩ => show win0_6.index ⟨(i 0).val / 512, hN⟩ (1 : Fin 2) * 2048 ≤ (i 1).val ∧ (i 1).val < win0_6.index ⟨(i 0).val / 512, hN⟩ (1 : Fin 2) * 2048 + 2048; omega

/-! ## The array after the region -/

/-- After the eight points the output array holds the layer's output of the inputs, the rescaled weight and the offsets as
    the region found them. -/
theorem arrAt6 (c : Dev nD) :
    (dats m 0 c).arrAt 6 cfg0.N = Cert.Dora.Y (V m c main_v0) (Wm m c) (V m c main_v1) :=
  (dats m 0 c).arrAt_eq_of_cover 6 (Cert.Dora.Y (V m c main_v0) (Wm m c) (V m c main_v1))
    (fun t _ => flushed6_eq m c t) cover6

/-! ## The program's result -/

/-- The grid's result array recast to 8×512×2048 is the specification's result of the six arguments: the grid found x and
    the offsets recast and the other four arguments untouched. -/
theorem result_eq (c : Dev nD) :
    shapeCast S8x512x2048 ((dats m 0 c).arrAt 6 cfg0.N) Facts₀.shapeCasts_S4096x2048_S8x512x2048
      = Cert.Dora.result Facts₀.shapeCasts_S8x512x2048_S4096x2048 Facts₀.shapeCasts_S2048_S1x2048 Facts₀.shapeCasts_S4096x2048_S8x512x2048
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [arrAt6 m c, V_main_v0 m c, V_main_v1 m c]
  show shapeCast S8x512x2048 (Cert.Dora.Y _ (Cert.Dora.W (V m c main_arg1) (V m c main_arg2) (V m c main_arg3) (V m c main_arg4)) _) _ = _
  rw [V_main_arg1 m c, V_main_arg2 m c, V_main_arg3 m c, V_main_arg4 m c]
  unfold Cert.Dora.result
  rfl

/-- Every run of the program ends with the result array holding the specification's result of the six arguments, and
    the arguments as they began. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Dora.result Facts₀.shapeCasts_S8x512x2048_S4096x2048 Facts₀.shapeCasts_S2048_S1x2048 Facts₀.shapeCasts_S4096x2048_S8x512x2048
              (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (run_post m ρ)

end Cert.KernelIdeal.KValue

end
-- ==== Proof.RefRun.lean ====
/-
  The reference program's run, from its two kernel regions.

  The program is five stretches in a row: a recast of x to 4096×2048; the first region, which writes the rescaled
  weight; a recast of the offsets to a row; the second region, which writes the layer's output; a recast of that
  output to 8×512×2048.  What every buffer outside the kernels' own scratch space holds at each boundary is a fold
  from the launch memory: a recast's result through a host stretch, a region's arrays at what its write-backs leave,
  everything else unchanged.  Given each region's proof data with its body obligation, every weakly fair execution
  terminates and the final memory holds the last fold at every such buffer.
-/
import proofs.«151641_g2000709426913694_pallasbulk_956_15_alg».proof.Proof.Gen.ReferenceIdeal.Launch
import proofs.«151641_g2000709426913694_pallasbulk_956_15_alg».proof.Proof.Gen.ReferenceIdeal.Skeleton
import proofs.«151641_g2000709426913694_pallasbulk_956_15_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After x is recast: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

-- the first region's proof data, entered from `V1`
variable (d0 : (c : Dev nD) → Dat τ (Elt F) Unit ℕ (UR sig nD τ) ℕ cfg0 c)

/-- At the first region's exit: its arrays at what its write-backs leave, every other buffer as entered. -/
def W2 (c : Dev nD) : Valuation τ sig (Elt F) :=
  Pipeline.withArrays spec0 c (W1 m ρ c) fun w => (d0 c).arrAt w cfg0.N
theorem W2_arr (c : Dev nD) (w : Fin cfg0.W) :
    W2 m ρ d0 c (Proc.devRef .tc (Pipeline.arrRef spec0 w)) = (d0 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ d0 c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ d0 c b
theorem hF0 (c : Dev nD) (w : Fin cfg0.W) : (d0 c).arrAt w cfg0.N = V2 m ρ d0 c (Pipeline.arrRef spec0 w) :=
  (W2_arr m ρ d0 c w).symm
theorem hrest0 (c : Dev nD) : ∀ b, b ∉ Finset.univ.image (Pipeline.arrRef spec0) → V2 m ρ d0 c b = V1 m ρ c b :=
  fun b hb => W2_of_ne m ρ d0 c b fun w e => hb (Finset.mem_image.mpr ⟨w, Finset.mem_univ _, e⟩)

/-- After the offsets are recast: the second region's entry. -/
abbrev W3 : Dev nD → Valuation τ sig (Elt F) := fun c => StableHlo.after hostOps1 (W2 m ρ d0 c)
abbrev V3 : (c : Dev nD) → (b : Ref sig .tc) → Buf (Elt F) ((c : Thread nD τ).loc b) := fun c b => W3 m ρ d0 c b

-- the second region's proof data, entered from `V3`
variable (d1 : (c : Dev nD) → Dat τ (Elt F) Unit ℕ (UR sig nD τ) ℕ cfg1 c)

/-- At the second region's exit. -/
def W4 (c : Dev nD) : Valuation τ sig (Elt F) :=
  Pipeline.withArrays spec1 c (W3 m ρ d0 c) fun w => (d1 c).arrAt w cfg1.N
theorem W4_arr (c : Dev nD) (w : Fin cfg1.W) :
    W4 m ρ d0 d1 c (Proc.devRef .tc (Pipeline.arrRef spec1 w)) = (d1 c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ d0 d1 c (Proc.devRef .tc b) = W3 m ρ d0 c (Proc.devRef .tc b) := by
  unfold W4; exact Pipeline.withArrays_of_ne spec1 c _ _ b hb
abbrev V4 : (c : Dev nD) → (b : Ref sig .tc) → Buf (Elt F) ((c : Thread nD τ).loc b) := fun c b => W4 m ρ d0 d1 c b
theorem hF1 (c : Dev nD) (w : Fin cfg1.W) : (d1 c).arrAt w cfg1.N = V4 m ρ d0 d1 c (Pipeline.arrRef spec1 w) :=
  (W4_arr m ρ d0 d1 c w).symm
theorem hrest1 (c : Dev nD) : ∀ b, b ∉ Finset.univ.image (Pipeline.arrRef spec1) → V4 m ρ d0 d1 c b = V3 m ρ d0 c b :=
  fun b hb => W4_of_ne m ρ d0 d1 c b fun w e => hb (Finset.mem_image.mpr ⟨w, Finset.mem_univ _, e⟩)

/-- After the output is recast: the end. -/
abbrev W5 : Dev nD → Valuation τ sig (Elt F) := fun c => StableHlo.after hostOps2 (W4 m ρ d0 d1 c)

/-! ## The proof data family and the thread state -/

abbrev adm : (p : Fin 2) → (pcfgs (F := F) p).Adm := fun p => (cfgs p).toPCfg_adm
/-- Both pipelines' proof data, as a literal match on the pipeline. -/
def pdats : (p : Fin 2) → (c : Dev nD) → Dat τ (Elt F) Unit ℕ (UR sig nD τ) ℕ (Pipeline.pin (pcfgs (F := F)) adm p) c
  | ⟨0, _⟩ => fun c => d0 c
  | ⟨1, _⟩ => fun c => d1 c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W5 m ρ d0 d1 c) ∗ ∃ r, prngReg c r)

/-! ## What is asked of the regions' proof data -/

-- each region's proof data reads its arrays off the entry contents, holds them at the full share, owes nothing, bounds
-- nothing, meets the body obligation, and its invariant starts from and returns to the launch's

/-! ## The regions as segments -/

set_option backward.isDefEq.respectTransparency.types false in
/-- The first region over the thread state: entered from every unscoped buffer at `W1`, left at `W2`. -/
def reg0 (hA0 : ∀ c w, (d0 c).A w = V1 m ρ c (Pipeline.arrRef spec0 w))
    (hq0 : ∀ c w, (d0 c).q w = fullShare) (ho0 : ∀ c t, (d0 c).owed t = 0) (hr0 : ∀ c t, (d0 c).recorded t = Set.univ)
    (hb0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c) :
    Pipeline.RegionSeg (pcfgs (F := F)) adm (pdats d0 d1) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun c t => ho0 c t
  pre c := iprop(StableHlo.held (c : Thread nD τ) (Pipeline.ucRefs τ sig) (W1 m ρ c) ∗ R c)
  post c := iprop(StableHlo.held (c : Thread nD τ) (Pipeline.ucRefs τ sig) (W2 m ρ d0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats d0 d1) launch0.win launch0.arr_whole c
      ((pdats d0 d1 0 c).share_full fun w => hq0 c w) (V1 m ρ c) fun w => hA0 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 0 c).owed 0 = 0 from ho0 c 0]
      icases HO with ⟨%W, HO⟩; iexists W; isplitr; · ipureintro; exact fun _ _ => Or.inl (by show _ ∈ (d0 c).recorded 0; rw [hr0 c 0]; exact Set.mem_univ _)
      iexact HO
    isplitl [Hp]; · iexact Hp
    iexact Hrest
  hin c := by
    refine BIBase.Entails.trans ?_ (hin0 c)
    unfold Pipeline.ΦA
    iintro ⟨Hp, -, Hr⟩
    isplitl [Hr]; · iexact Hr
    iexact Hp
  hout c := by
    rw [Pipeline.ownSems0_none]
    refine BIBase.Entails.trans (hout0 c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d0 d1) ((pdats d0 d1 0 c).share_full fun w => hq0 c w)
      (V1 m ρ c) (V2 m ρ d0 c) ((pdats d0 d1 0 c).arrAt · cfg0.N) (hF0 m ρ d0 c) (hrest0 m ρ d0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 0 c).owed (Fin.last _) = 0 from ho0 c _]
    icases HO with ⟨%W, -, HO⟩; iexists W; iexact HO

set_option backward.isDefEq.respectTransparency.types false in
/-- The second region over the thread state: entered from every unscoped buffer at `W3`, left at `W4`. -/
def reg1 (hA1 : ∀ c w, (d1 c).A w = V3 m ρ d0 c (Pipeline.arrRef spec1 w))
    (hq1 : ∀ c w, (d1 c).q w = fullShare) (ho1 : ∀ c t, (d1 c).owed t = 0) (hr1 : ∀ c t, (d1 c).recorded t = Set.univ)
    (hb1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c) :
    Pipeline.RegionSeg (pcfgs (F := F)) adm (pdats d0 d1) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun c t => ho1 c t
  pre c := iprop(StableHlo.held (c : Thread nD τ) (Pipeline.ucRefs τ sig) (W3 m ρ d0 c) ∗ R c)
  post c := iprop(StableHlo.held (c : Thread nD τ) (Pipeline.ucRefs τ sig) (W4 m ρ d0 d1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ d0 c)
  hentry c := by
    rw [Pipeline.ownSems0_none]
    have hsplit := Pipeline.arrays_of_unscopedBufs (p := 1) (pcfgs (F := F)) adm (pdats d0 d1) launch1.win launch1.arr_whole c
      ((pdats d0 d1 1 c).share_full fun w => hq1 c w) (V3 m ρ d0 c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 1 c).owed 0 = 0 from ho1 c 0]
      icases HO with ⟨%W, HO⟩; iexists W; isplitr; · ipureintro; exact fun _ _ => Or.inl (by show _ ∈ (d1 c).recorded 0; rw [hr1 c 0]; exact Set.mem_univ _)
      iexact HO
    isplitl [Hp]; · iexact Hp
    iexact Hrest
  hin c := by
    refine BIBase.Entails.trans ?_ (hin1 c)
    unfold Pipeline.ΦA
    iintro ⟨Hp, -, Hr⟩
    isplitl [Hr]; · iexact Hr
    iexact Hp
  hout c := by
    rw [Pipeline.ownSems0_none]
    refine BIBase.Entails.trans (hout1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d0 d1) ((pdats d0 d1 1 c).share_full fun w => hq1 c w)
      (V3 m ρ d0 c) (V4 m ρ d0 d1 c) ((pdats d0 d1 1 c).arrAt · cfg1.N) (hF1 m ρ d0 d1 c) (hrest1 m ρ d0 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 1 c).owed (Fin.last _) = 0 from ho1 c _]
    icases HO with ⟨%W, -, HO⟩; iexists W; iexact HO

/-! ## The program as segments, and the run -/

abbrev segs (hA0 : ∀ c w, (d0 c).A w = V1 m ρ c (Pipeline.arrRef spec0 w))
    (hq0 : ∀ c w, (d0 c).q w = fullShare) (ho0 : ∀ c t, (d0 c).owed t = 0) (hr0 : ∀ c t, (d0 c).recorded t = Set.univ)
    (hb0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (hA1 : ∀ c w, (d1 c).A w = V3 m ρ d0 c (Pipeline.arrRef spec1 w))
    (hq1 : ∀ c w, (d1 c).q w = fullShare) (ho1 : ∀ c t, (d1 c).owed t = 0) (hr1 : ∀ c t, (d1 c).recorded t = Set.univ)
    (hb1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c) :
    List (Pipeline.Seg (pcfgs (F := F)) adm (pdats d0 d1) () defs₀ 𝒱₀ L lv) :=
  [ .host (hseg hostOps0 hostOps0_sub hostOps0_fresh (W0 m ρ)),
    .region (reg0 m ρ d0 d1 hA0 hq0 ho0 hr0 hb0 hin0 hout0),
    .host (hseg hostOps1 hostOps1_sub hostOps1_fresh (W2 m ρ d0)),
    .region (reg1 m ρ d0 d1 hA1 hq1 ho1 hr1 hb1 hin1 hout1),
    .host (hseg hostOps2 hostOps2_sub hostOps2_fresh (W4 m ρ d0 d1)) ]

theorem main_run (hA0 : ∀ c w, (d0 c).A w = V1 m ρ c (Pipeline.arrRef spec0 w))
    (hq0 : ∀ c w, (d0 c).q w = fullShare) (ho0 : ∀ c t, (d0 c).owed t = 0) (hr0 : ∀ c t, (d0 c).recorded t = Set.univ)
    (hb0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (hA1 : ∀ c w, (d1 c).A w = V3 m ρ d0 c (Pipeline.arrRef spec1 w))
    (hq1 : ∀ c w, (d1 c).q w = fullShare) (ho1 : ∀ c t, (d1 c).owed t = 0) (hr1 : ∀ c t, (d1 c).recorded t = Set.univ)
    (hb1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c) (c : Dev nD) : main (F := F) c = Pipeline.Seg.run (segs m ρ d0 d1 hA0 hq0 ho0 hr0 hb0 hin0 hout0 hA1 hq1 ho1 hr1 hb1 hin1 hout1) :=
  main_segs adm (pdats d0 d1) () 𝒱₀ L lv _ _ _ _ _ rfl rfl rfl c

set_option backward.isDefEq.respectTransparency.types false in
/-- THE RUN. Every weakly fair execution of the program from memory `m` terminates, nothing faulting, and the final
    memory holds the last fold `W5` at every buffer outside the kernels' scratch space. -/
theorem run_all (hA0 : ∀ c w, (d0 c).A w = V1 m ρ c (Pipeline.arrRef spec0 w))
    (hq0 : ∀ c w, (d0 c).q w = fullShare) (ho0 : ∀ c t, (d0 c).owed t = 0) (hr0 : ∀ c t, (d0 c).recorded t = Set.univ)
    (hb0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (hA1 : ∀ c w, (d1 c).A w = V3 m ρ d0 c (Pipeline.arrRef spec1 w))
    (hq1 : ∀ c w, (d1 c).q w = fullShare) (ho1 : ∀ c t, (d1 c).owed t = 0) (hr1 : ∀ c t, (d1 c).recorded t = Set.univ)
    (hb1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ d0 d1 c b) :=
  Pipeline.θ_run_regions_kit (pcfgs (F := F)) adm (pdats d0 d1) () cellOf_inj emb₁ defs₀ 𝒱₀ L lv m ρ main
    (segs m ρ d0 d1 hA0 hq0 ho0 hr0 hb0 hin0 hout0 hA1 hq1 ho1 hr1 hb1 hin1 hout1)
    (fun c Q => by rw [main_run m ρ d0 d1 hA0 hq0 ho0 hr0 hb0 hin0 hout0 hA1 hq1 ho1 hr1 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ d0 d1)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m ρ d0 d1 c)) ∗ R c)
        ⊢ iprop(Tₙ m ρ d0 d1 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ d0 d1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ d0 d1 c) s')
      isplitl [Hh] <;> iassumption)
    (hQ := fun s h c => h c)

end Cert.ReferenceIdeal.Hand

end
-- ==== Proof.RefValue.lean ====
/-
  What the reference program's run leaves, read back to the launch memory.

  Through the fold of the run: the recast x and the recast offsets are recasts of the arguments; the first region's
  output array is the rescaled weight W of the arguments V, B, A, m; the second region's output array is the layer's
  output Y of the recast x, that W and the recast offsets; the result is its recast to 8×512×2048.  Every argument
  array ends as launched.
-/
import proofs.«151641_g2000709426913694_pallasbulk_956_15_alg».proof.Proof.RefRun
import proofs.«151641_g2000709426913694_pallasbulk_956_15_alg».proof.Proof.Spec

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable (m : (ℓ : Loc nD τ sig) → Buf (Elt Ideal) ℓ) (ρ : Dev nD → PrngReg)
variable (d0 : (c : Dev nD) → Dat τ (Elt Ideal) Unit ℕ (UR sig nD τ) ℕ cfg0 c)
variable (d1 : (c : Dev nD) → Dat τ (Elt Ideal) Unit ℕ (UR sig nD τ) ℕ cfg1 c)
variable (hA0 : ∀ c w, (d0 c).A w = V1 m ρ c (Pipeline.arrRef spec0 w))
include hA0

/-! ## The arguments -/

/-- Argument 0 reaches the end as launched: no recast writes it and no region's write-back touches it. -/
theorem W5_main_arg0 (c : Dev nD) : W5 m ρ d0 d1 c (Proc.devRef .tc main_arg0) = m ((c : Thread nD τ).loc main_arg0) :=
  calc W5 m ρ d0 d1 c (Proc.devRef .tc main_arg0)
    _ = W4 m ρ d0 d1 c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W3 m ρ d0 c (Proc.devRef .tc main_arg0) := W4_of_ne m ρ d0 d1 c main_arg0 (by decide)
    _ = W2 m ρ d0 c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ d0 c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- Argument 1 reaches the end as launched: no recast writes it and no region's write-back touches it. -/
theorem W5_main_arg1 (c : Dev nD) : W5 m ρ d0 d1 c (Proc.devRef .tc main_arg1) = m ((c : Thread nD τ).loc main_arg1) :=
  calc W5 m ρ d0 d1 c (Proc.devRef .tc main_arg1)
    _ = W4 m ρ d0 d1 c (Proc.devRef .tc main_arg1) := StableHlo.after_of_forall_not_mem (b := Proc.devRef .tc main_arg1) _ _ (List.forall_iff_forall_mem.mp (by
          simp only [hostOps2, List.Forall, StableHlo.reshape_writes, Finset.mem_singleton]
          exact StableHlo.devRef_ne_of_ne (by decide)))
    _ = W3 m ρ d0 c (Proc.devRef .tc main_arg1) := W4_of_ne m ρ d0 d1 c main_arg1 (by decide)
    _ = W2 m ρ d0 c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := (W2_arr m ρ d0 c 0).trans (((d0 c).arrAt_in 0 rfl _).trans (hA0 c 0))
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

/-- Argument 2 reaches the end as launched: no recast writes it and no region's write-back touches it. -/
theorem W5_main_arg2 (c : Dev nD) : W5 m ρ d0 d1 c (Proc.devRef .tc main_arg2) = m ((c : Thread nD τ).loc main_arg2) :=
  calc W5 m ρ d0 d1 c (Proc.devRef .tc main_arg2)
    _ = W4 m ρ d0 d1 c (Proc.devRef .tc main_arg2) := StableHlo.after_of_forall_not_mem (b := Proc.devRef .tc main_arg2) _ _ (List.forall_iff_forall_mem.mp (by
          simp only [hostOps2, List.Forall, StableHlo.reshape_writes, Finset.mem_singleton]
          exact StableHlo.devRef_ne_of_ne (by decide)))
    _ = W3 m ρ d0 c (Proc.devRef .tc main_arg2) := W4_of_ne m ρ d0 d1 c main_arg2 (by decide)
    _ = W2 m ρ d0 c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := (W2_arr m ρ d0 c 1).trans (((d0 c).arrAt_in 1 rfl _).trans (hA0 c 1))
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl

/-- Argument 3 reaches the end as launched: no recast writes it and no region's write-back touches it. -/
theorem W5_main_arg3 (c : Dev nD) : W5 m ρ d0 d1 c (Proc.devRef .tc main_arg3) = m ((c : Thread nD τ).loc main_arg3) :=
  calc W5 m ρ d0 d1 c (Proc.devRef .tc main_arg3)
    _ = W4 m ρ d0 d1 c (Proc.devRef .tc main_arg3) := StableHlo.after_of_forall_not_mem (b := Proc.devRef .tc main_arg3) _ _ (List.forall_iff_forall_mem.mp (by
          simp only [hostOps2, List.Forall, StableHlo.reshape_writes, Finset.mem_singleton]
          exact StableHlo.devRef_ne_of_ne (by decide)))
    _ = W3 m ρ d0 c (Proc.devRef .tc main_arg3) := W4_of_ne m ρ d0 d1 c main_arg3 (by decide)
    _ = W2 m ρ d0 c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := (W2_arr m ρ d0 c 2).trans (((d0 c).arrAt_in 2 rfl _).trans (hA0 c 2))
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl

/-- Argument 4 reaches the end as launched: no recast writes it and no region's write-back touches it. -/
theorem W5_main_arg4 (c : Dev nD) : W5 m ρ d0 d1 c (Proc.devRef .tc main_arg4) = m ((c : Thread nD τ).loc main_arg4) :=
  calc W5 m ρ d0 d1 c (Proc.devRef .tc main_arg4)
    _ = W4 m ρ d0 d1 c (Proc.devRef .tc main_arg4) := StableHlo.after_of_forall_not_mem (b := Proc.devRef .tc main_arg4) _ _ (List.forall_iff_forall_mem.mp (by
          simp only [hostOps2, List.Forall, StableHlo.reshape_writes, Finset.mem_singleton]
          exact StableHlo.devRef_ne_of_ne (by decide)))
    _ = W3 m ρ d0 c (Proc.devRef .tc main_arg4) := W4_of_ne m ρ d0 d1 c main_arg4 (by decide)
    _ = W2 m ρ d0 c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W1 m ρ c (Proc.devRef .tc main_arg4) := (W2_arr m ρ d0 c 3).trans (((d0 c).arrAt_in 3 rfl _).trans (hA0 c 3))
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))
    _ = m ((c : Thread nD τ).loc main_arg4) := rfl

/-- Argument 5 reaches the end as launched: no recast writes it and no region's write-back touches it. -/
theorem W5_main_arg5 (c : Dev nD) : W5 m ρ d0 d1 c (Proc.devRef .tc main_arg5) = m ((c : Thread nD τ).loc main_arg5) :=
  calc W5 m ρ d0 d1 c (Proc.devRef .tc main_arg5)
    _ = W4 m ρ d0 d1 c (Proc.devRef .tc main_arg5) := StableHlo.after_of_forall_not_mem (b := Proc.devRef .tc main_arg5) _ _ (List.forall_iff_forall_mem.mp (by
          simp only [hostOps2, List.Forall, StableHlo.reshape_writes, Finset.mem_singleton]
          exact StableHlo.devRef_ne_of_ne (by decide)))
    _ = W3 m ρ d0 c (Proc.devRef .tc main_arg5) := W4_of_ne m ρ d0 d1 c main_arg5 (by decide)
    _ = W2 m ρ d0 c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W1 m ρ c (Proc.devRef .tc main_arg5) := W2_of_ne m ρ d0 c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl

/-! ## The regions' operands -/

omit hA0 in
/-- The first region finds each argument as launched. -/
theorem V1_arg (c : Dev nD) :
    V1 m ρ c main_arg1 = m ((c : Thread nD τ).loc main_arg1) ∧ V1 m ρ c main_arg2 = m ((c : Thread nD τ).loc main_arg2)
      ∧ V1 m ρ c main_arg3 = m ((c : Thread nD τ).loc main_arg3) ∧ V1 m ρ c main_arg4 = m ((c : Thread nD τ).loc main_arg4) :=
  ⟨StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide))),
   StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide))),
   StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide))),
   StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))⟩

omit hA0 in
/-- The second region's first operand is x recast to 4096×2048. -/
theorem V3_main_v0 (c : Dev nD) :
    V3 m ρ d0 c main_v0 = shapeCast S4096x2048 (m ((c : Thread nD τ).loc main_arg0)) Facts₀.shapeCasts_S8x512x2048_S4096x2048 :=
  calc W3 m ρ d0 c (Proc.devRef .tc main_v0)
    _ = W2 m ρ d0 c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = W1 m ρ c (Proc.devRef .tc main_v0) := W2_of_ne m ρ d0 c main_v0 (by decide)
    _ = _ := by dsimp only [W1, hostOps0]; after_results; rfl

omit hA0 in
/-- Its second operand is the first region's output array. -/
theorem V3_main_v1 (c : Dev nD) : V3 m ρ d0 c main_v1 = (d0 c).arrAt 4 cfg0.N :=
  calc W3 m ρ d0 c (Proc.devRef .tc main_v1)
    _ = W2 m ρ d0 c (Proc.devRef .tc main_v1) := StableHlo.after_of_forall_not_mem (b := Proc.devRef .tc main_v1) _ _ (List.forall_iff_forall_mem.mp (by
          simp only [hostOps1, List.Forall, StableHlo.reshape_writes, Finset.mem_singleton]
          exact StableHlo.devRef_ne_of_ne (by decide)))
    _ = _ := W2_arr m ρ d0 c 4

/-- Its third operand is the offsets recast to a row. -/
theorem V3_main_v2 (c : Dev nD) :
    V3 m ρ d0 c main_v2 = shapeCast S1x2048 (m ((c : Thread nD τ).loc main_arg5)) Facts₀.shapeCasts_S2048_S1x2048 := by
  have e5 : W2 m ρ d0 c (Proc.devRef .tc main_arg5) = m ((c : Thread nD τ).loc main_arg5) :=
    (W2_of_ne m ρ d0 c main_arg5 (by decide)).trans (StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide))))
  show W3 m ρ d0 c (Proc.devRef .tc main_v2) = _
  dsimp only [W3, hostOps1]; after_results
  rw [e5]
  rfl

omit hA0 in
/-- The result is the second region's output array recast to 8×512×2048. -/
theorem W5_main_v4 (c : Dev nD) :
    W5 m ρ d0 d1 c (Proc.devRef .tc main_v4) = shapeCast S8x512x2048 ((d1 c).arrAt 3 cfg1.N) Facts₀.shapeCasts_S4096x2048_S8x512x2048 := by
  have e3 : W4 m ρ d0 d1 c (Proc.devRef .tc main_v3) = (d1 c).arrAt 3 cfg1.N := W4_arr m ρ d0 d1 c 3
  dsimp only [W5, hostOps2]; after_results
  rw [e3]
  rfl

/-- THE RESULT: given that the regions' output arrays are W and Y of what the regions find, the program's result is
    the specification's, of the launch memory's arguments. -/
theorem W5_result (c : Dev nD)
    (hv0 : (d0 c).arrAt 4 cfg0.N = Cert.Dora.W (V1 m ρ c main_arg1) (V1 m ρ c main_arg2) (V1 m ρ c main_arg3) (V1 m ρ c main_arg4))
    (hv1 : (d1 c).arrAt 3 cfg1.N = Cert.Dora.Y (V3 m ρ d0 c main_v0) (V3 m ρ d0 c main_v1) (V3 m ρ d0 c main_v2)) :
    W5 m ρ d0 d1 c (Proc.devRef .tc main_v4)
      = Cert.Dora.result Facts₀.shapeCasts_S8x512x2048_S4096x2048 Facts₀.shapeCasts_S2048_S1x2048 Facts₀.shapeCasts_S4096x2048_S8x512x2048
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W5_main_v4 m ρ d0 d1 c, hv1, V3_main_v0 m ρ d0 c, V3_main_v1 m ρ d0 c, V3_main_v2 m ρ d0 hA0 c, hv0,
    (V1_arg m ρ c).1, (V1_arg m ρ c).2.1, (V1_arg m ρ c).2.2.1, (V1_arg m ρ c).2.2.2]
  rfl

end Cert.ReferenceIdeal.Hand

end
-- ==== Proof.RefRegion0.lean ====
/-
  The first kernel region of the reference: the rescaled weight, one 512-column panel per grid point.

  The region runs four grid points. Point t holds, in on-chip buffers, columns 512·t … 512·t + 511 of V (a 2048×512
  panel), of A (16×512) and of the magnitudes m (1×512), and the whole of B (2048×16: moved in once, at the first point,
  and left in place). Its body forms the corrected panel v + b·a, the column sums of its squares, the scales
  m · rsqrt(sum) spread over the rows, and the product of the two, and stores that panel, whole, into the output's
  buffer, which is written back to columns 512·t … 512·t + 511 of the result at every point.

  This module is the memory half, at any float model: what each buffer holds before and after the body at every point
  (each input its block of the array as the region finds it, the output the panel computed from the four input blocks),
  and that the body, run on such buffers, leaves them so.
-/
import proofs.«151641_g2000709426913694_pallasbulk_956_15_alg».proof.Proof.Gen.ReferenceIdeal.Launch
import proofs.«151641_g2000709426913694_pallasbulk_956_15_alg».proof.Proof.Gen.ReferenceIdeal.Skeleton
import proofs.«151641_g2000709426913694_pallasbulk_956_15_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the contents of the core's arrays when the region is entered
variable (V : (c : Dev nD) → (b : Ref sig .tc) → Buf (Elt F) ((c : Thread nD τ).loc b))

/-! ## The windows' blocks -/

/-- Window `w`'s block at point `t`, read off its array as the region finds it: for the three panelled inputs and the
    output the columns 512·t … 512·t + 511, for B the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the block was moved in at that point
    or at an earlier one, for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the block was moved in at that point
    or at an earlier one, for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the block was moved in at that point
    or at an earlier one, for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the block was moved in at that point
    or at an earlier one, for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, from offset (0, 0) -/

theorem hz0 : (![0, 0] : Fin 2 → Nat) = fun _ => 0 := funext fun a => by fin_cases a <;> rfl

abbrev r0_0 : Rect S2048x512 := Rect.unit (s := S2048x512) ![0, 0] S2048x512.size inb_S2048x512_S2048x512_0_0
abbrev r0_1 : Rect S2048x16 := Rect.unit (s := S2048x16) ![0, 0] S2048x16.size inb_S2048x16_S2048x16_0_0
abbrev r0_2 : Rect S16x512 := Rect.unit (s := S16x512) ![0, 0] S16x512.size inb_S16x512_S16x512_0_0
abbrev r0_3 : Rect S1x512 := Rect.unit (s := S1x512) ![0, 0] S1x512.size inb_S1x512_S1x512_0_0

/-! ## What the body leaves in the output panel's buffer -/

/-- The one store fills the whole buffer, so it covers every index. -/
theorem cover0_4 (p0 : Vec F S2048x512 .f32) (y : S2048x512.Idx) :
    ∃ pc ∈ ([⟨r0_0, p0⟩] : List (View.Piece (Elt F) S2048x512 .f32)), y ∈ pc.1.set :=
  ⟨_, List.mem_singleton_self _, View.mem_set_unit_zero hz0 inb_S2048x512_S2048x512_0_0 y⟩

/-- One whole-buffer store of the panel computed from whole-buffer loads leaves exactly that panel of the loaded blocks. -/
theorem out0_4_eq (x0 : Vec F S2048x512 .f32) (x1 : Vec F S2048x16 .f32) (x2 : Vec F S16x512 .f32) (x3 : Vec F S1x512 .f32) :
    View.canon [(⟨r0_0, k0_pay1 (View.ld x1 r0_1) (View.ld x2 r0_2) (View.ld x0 r0_0) (View.ld x3 r0_3)⟩ : View.Piece (Elt F) S2048x512 .f32)]
      = k0_pay1 x1 x2 x0 x3 := by
  rw [View.canon_unit_zero hz0]
  simp only [View.ld_unit_zero (S := S2048x512) hz0, View.ld_unit_zero (S := S2048x16) hz0, View.ld_unit_zero (S := S16x512) hz0,
    View.ld_unit_zero (S := S1x512) hz0]

/-! ## The body's triple -/

set_option maxHeartbeats 1000000 in
/-- The body on whole staging buffers, the four inputs' at contents `x0 … x3` and the output's at anything, runs to the
    continuation holding the inputs' as they were and the output's at the rescaled panel of them. -/
theorem sound_kernel0 (c : Dev nD) (E : Set ℕ) (i : grid0.Coords) (arg1 : Memref sig .tc .vmem S2048x512 .f32) (harg1 : arg1.IsWhole) (arg2 : Memref sig .tc .vmem S2048x16 .f32) (harg2 : arg2.IsWhole) (arg3 : Memref sig .tc .vmem S16x512 .f32) (harg3 : arg3.IsWhole) (arg4 : Memref sig .tc .vmem S1x512 .f32) (harg4 : arg4.IsWhole) (arg5 : Memref sig .tc .vmem S2048x512 .f32) (harg5 : arg5.IsWhole)
    (x0 : Vec F S2048x512 .f32) (x1 : Vec F S2048x16 .f32) (x2 : Vec F S16x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x1 x2 x0 x3)) -∗ K ⟨⟩))
      ⊢ wp frame (wpE (defs₀ (F := F)) Variants.none c none) E (cc0__wprime_kernel i arg1 harg1 arg2 harg2 arg3 harg3 arg4 harg4 arg5 harg5) K := by
  simp only [cc0__wprime_kernel_eq_skeleton]; unfold cc0__wprime_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_4 _)).trans (out0_4_eq _ _ _ _)

/-! ## The region's proof data -/

/-- The proof data of the region on core `c`: the arrays as the region finds them; after the body at point `t` each
    input's buffer at its block and the output's at the rescaled panel of the four input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 1 t) (iblk0 V c 2 t) (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 1 t) (iblk0 V c 2 t) (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefRegion0Value.lean ====
/-
  The first kernel region of the reference, read: after its four points the output array is the rescaled weight.

  Point t stores the panel whose entry (d, k) is v'(d, k) · (m(512·t + k) · rsqrt(Σ_d' v'(d', k)²)), where
  v'(d, k) = V(d, 512·t + k) + Σ_r B(d, r) · A(r, 512·t + k): the blocks the point holds are columns 512·t … 512·t + 511
  of V, A and m and all of B, so this is W(d, 512·t + k) of the specification. The point writes the panel back to
  columns 512·t … 512·t + 511 of the output. Column k of the output lies in the block of point k / 512, and every point
  writes its block back, so the four blocks cover the array, which therefore ends holding W of V, B, A and m as the
  region found them.
-/
import proofs.«151641_g2000709426913694_pallasbulk_956_15_alg».proof.Proof.RefRegion0
import proofs.«151641_g2000709426913694_pallasbulk_956_15_alg».proof.Proof.Spec
import proofs.«151641_g2000709426913694_pallasbulk_956_15_alg».proof.Proof.Panel
import Idealize.ShloMosaic.Lib.Pipeline.Value
import Idealize.ShloMosaic.Lib.ValueIdx

set_option maxRecDepth 16384

noncomputable section

open scoped BigOperators

namespace Cert.ReferenceIdeal.Hand

open Idealize.ShloMosaic Idealize.ShloMosaic.TcCoe Idealize.ShloMosaic.ValueIdx
open Idealize.SL Idealize.SL.Sem
open Idealize.ShloMosaic.Pipeline (Dat)
open Cert.ReferenceIdeal.Gen

/-! ## The body's panel at an entry -/

/-- The stored panel at (d, k): the corrected entry v(d, k) + Σ_r b(d, r)·a(r, k) times the column's scale
    mr(k) · rsqrt(Σ_d' (v(d', k) + Σ_r b(d', r)·a(r, k))²). -/
theorem pay_apply (v : FVec Ideal S2048x512 .f32) (b : FVec Ideal S2048x16 .f32) (a : FVec Ideal S16x512 .f32)
    (mr : FVec Ideal S1x512 .f32) (d : Fin 2048) (k : Fin 512) :
    k0_pay1 (F := Ideal) b a v mr (ix2 d k)
      = (v (ix2 d k) + ∑ r : Fin 16, b (ix2 d r) * a (ix2 r k))
          * (mr (ix2 0 k) * Ideal.rsqrt (∑ d' : Fin 2048,
              (v (ix2 d' k) + ∑ r : Fin 16, b (ix2 d' r) * a (ix2 r k)) * (v (ix2 d' k) + ∑ r : Fin 16, b (ix2 d' r) * a (ix2 r k)))) := by
  unfold k0_pay1
  exact Cert.Dora.panel_apply _ _ _ _ _ v b a mr d k

/-! ## Where each window's block sits in its array -/

/-- The block indices over the four points: the panelled windows (V, A, m and the output) sit at block (0, t), B at
    block (0, 0); and there are four points. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ t.val < 4 :=
  (by decide +kernel : ∀ t : Fin grid0.N, _)

/-- Column k of point t's panel is column 512·t + k of the array. -/
def col (t : Fin cfg0.N) (k : Fin 512) : Fin 2048 :=
  ⟨t.val * 512 + k.val, by have := (idx_facts0 t).2.2.2.2.2.2.2.2.2.2; have := k.isLt; omega⟩

theorem col_val (t : Fin cfg0.N) (k : Fin 512) : (col t k).val = t.val * 512 + k.val := rfl

variable (V : (c : Dev nD) → (b : Ref sig .tc) → Buf (Elt Ideal) ((c : Thread nD τ).loc b))

/-- V's block at point t is columns 512·t … of V. -/
theorem iblk0_0_apply (c : Dev nD) (t : Fin cfg0.N) (d : Fin 2048) (k : Fin 512) :
    iblk0 V c 0 t (ix2 d k) = V c main_arg1 (ix2 d (col t k)) := by
  show V c main_arg1 (((cfg0.win 0).blk t).view.emb (ix2 d k)) = V c main_arg1 (ix2 d (col t k))
  refine congrArg (V c main_arg1) ?_
  obtain ⟨e0, e1, -⟩ := idx_facts0 t
  funext a; apply Fin.ext
  match a with
  | ⟨0, _⟩ => show win0_0.index t (0 : Fin 2) * 2048 + 1 * d.val = d.val; omega
  | ⟨1, _⟩ => show win0_0.index t (1 : Fin 2) * 512 + 1 * k.val = t.val * 512 + k.val; omega

/-- B's block at every point is all of B. -/
theorem iblk0_1_apply (c : Dev nD) (t : Fin cfg0.N) (d : Fin 2048) (r : Fin 16) :
    iblk0 V c 1 t (ix2 d r) = V c main_arg2 (ix2 d r) := by
  show V c main_arg2 (((cfg0.win 1).blk t).view.emb (ix2 d r)) = V c main_arg2 (ix2 d r)
  refine congrArg (V c main_arg2) ?_
  obtain ⟨-, -, e0, e1, -⟩ := idx_facts0 t
  funext a; apply Fin.ext
  match a with
  | ⟨0, _⟩ => show win0_1.index t (0 : Fin 2) * 2048 + 1 * d.val = d.val; omega
  | ⟨1, _⟩ => show win0_1.index t (1 : Fin 2) * 16 + 1 * r.val = r.val; omega

/-- A's block at point t is columns 512·t … of A. -/
theorem iblk0_2_apply (c : Dev nD) (t : Fin cfg0.N) (r : Fin 16) (k : Fin 512) :
    iblk0 V c 2 t (ix2 r k) = V c main_arg3 (ix2 r (col t k)) := by
  show V c main_arg3 (((cfg0.win 2).blk t).view.emb (ix2 r k)) = V c main_arg3 (ix2 r (col t k))
  refine congrArg (V c main_arg3) ?_
  obtain ⟨-, -, -, -, e0, e1, -⟩ := idx_facts0 t
  funext a; apply Fin.ext
  match a with
  | ⟨0, _⟩ => show win0_2.index t (0 : Fin 2) * 16 + 1 * r.val = r.val; omega
  | ⟨1, _⟩ => show win0_2.index t (1 : Fin 2) * 512 + 1 * k.val = t.val * 512 + k.val; omega

/-- The magnitudes' block at point t is columns 512·t … of the row m. -/
theorem iblk0_3_apply (c : Dev nD) (t : Fin cfg0.N) (z : Fin 1) (k : Fin 512) :
    iblk0 V c 3 t (ix2 z k) = V c main_arg4 (ix2 z (col t k)) := by
  show V c main_arg4 (((cfg0.win 3).blk t).view.emb (ix2 z k)) = V c main_arg4 (ix2 z (col t k))
  refine congrArg (V c main_arg4) ?_
  obtain ⟨-, -, -, -, -, -, e0, e1, -⟩ := idx_facts0 t
  funext a; apply Fin.ext
  match a with
  | ⟨0, _⟩ => show win0_3.index t (0 : Fin 2) * 1 + 1 * z.val = z.val; omega
  | ⟨1, _⟩ => show win0_3.index t (1 : Fin 2) * 512 + 1 * k.val = t.val * 512 + k.val; omega

/-- Entry (d, k) of the output's block at point t is entry (d, 512·t + k) of the array. -/
theorem emb0_4 (t : Fin cfg0.N) (d : Fin 2048) (k : Fin 512) :
    ((cfg0.win 4).blk t).view.emb (ix2 d k) = ix2 d (col t k) := by
  obtain ⟨-, -, -, -, -, -, -, -, e0, e1, -⟩ := idx_facts0 t
  funext a; apply Fin.ext
  match a with
  | ⟨0, _⟩ => show win0_4.index t (0 : Fin 2) * 2048 + 1 * d.val = d.val; omega
  | ⟨1, _⟩ => show win0_4.index t (1 : Fin 2) * 512 + 1 * k.val = t.val * 512 + k.val; omega

/-! ## What each point writes back -/

/-- The panel point t computes, at (d, k), is the rescaled weight at (d, 512·t + k). -/
theorem panel_eq (c : Dev nD) (t : Fin cfg0.N) (d : Fin 2048) (k : Fin 512) :
    k0_pay1 (F := Ideal) (iblk0 V c 1 t) (iblk0 V c 2 t) (iblk0 V c 0 t) (iblk0 V c 3 t) (ix2 d k)
      = Cert.Dora.wAt (V c main_arg1) (V c main_arg2) (V c main_arg3) (V c main_arg4) d (col t k) := by
  refine (pay_apply (iblk0 V c 0 t) (iblk0 V c 1 t) (iblk0 V c 2 t) (iblk0 V c 3 t) d k).trans ?_
  unfold Cert.Dora.wAt Cert.Dora.vp
  simp only [iblk0_0_apply, iblk0_1_apply, iblk0_2_apply, iblk0_3_apply]

/-- The panel of point t as a function on the block's indices: at each index, the rescaled weight at the index's
    place in the array. -/
theorem panel_fun (c : Dev nD) (t : Fin cfg0.N) :
    (k0_pay1 (F := Ideal) (iblk0 V c 1 t) (iblk0 V c 2 t) (iblk0 V c 0 t) (iblk0 V c 3 t) : S2048x512.Idx → EReal)
      = fun j : S2048x512.Idx => Cert.Dora.W (V c main_arg1) (V c main_arg2) (V c main_arg3) (V c main_arg4) (((cfg0.win 4).blk t).view.emb j) := by
  funext j
  obtain ⟨d, k, rfl⟩ : ∃ (d : Fin 2048) (k : Fin 512), j = ix2 d k := ⟨j 0, j 1, eq_ix2 j⟩
  exact (panel_eq V c t d k).trans
    (congrArg (Cert.Dora.W (V c main_arg1) (V c main_arg2) (V c main_arg3) (V c main_arg4)) (emb0_4 t d k)).symm

/-- What point t writes back is block t of the rescaled weight of the arrays as the region finds them. -/
theorem flushed0_4_eq (c : Dev nD) (t : Fin cfg0.N) :
    (dat0 (F := Ideal) V c).flushed 4 t
      = ((cfg0.win 4).blk t).view.read (Elt Ideal) (Cert.Dora.W (V c main_arg1) (V c main_arg2) (V c main_arg3) (V c main_arg4)) := by
  show (cfg0.win 4).cut (grid0.coords t) ((dat0 V c).after 4 t) = _
  rw [after0_4]
  exact panel_fun V c t

/-! ## The blocks cover the array -/

/-- An index of the array is in point t's block iff each coordinate is in the block's range on its axis. -/
theorem mem_blk0_4 (t : Fin cfg0.N) (i : S2048x2048.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v1).slice (win0_4.rect t)).set ↔ _
  rw [View.set_slice_whole, Rect.mem_set_unit]
  exact Iff.rfl

/-- Column k of the array lies in the block of point k / 512, and every point writes its block back. -/
theorem cover0_arr (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  have hN : (i 1).val / 512 < cfg0.N := by show _ < grid0.N; rw [N_0]; omega
  refine ⟨⟨(i 1).val / 512, hN⟩, flush0_4 _, ?_⟩
  rw [mem_blk0_4]
  obtain ⟨-, -, -, -, -, -, -, -, e0, e1, -⟩ := idx_facts0 ⟨(i 1).val / 512, hN⟩
  have e1' : win0_4.index ⟨(i 1).val / 512, hN⟩ (1 : Fin 2) = (i 1).val / 512 := e1
  intro a
  match a with
  | ⟨0, _⟩ => show win0_4.index ⟨(i 1).val / 512, hN⟩ (0 : Fin 2) * 2048 ≤ (i 0).val ∧ (i 0).val < win0_4.index ⟨(i 1).val / 512, hN⟩ (0 : Fin 2) * 2048 + 2048; omega
  | ⟨1, _⟩ => show win0_4.index ⟨(i 1).val / 512, hN⟩ (1 : Fin 2) * 512 ≤ (i 1).val ∧ (i 1).val < win0_4.index ⟨(i 1).val / 512, hN⟩ (1 : Fin 2) * 512 + 512; omega

/-! ## The array after the region -/

/-- After the four points the output array holds the rescaled weight of V, B, A and m as the region found them. -/
theorem arrAt0_4 (c : Dev nD) :
    (dat0 (F := Ideal) V c).arrAt 4 cfg0.N = Cert.Dora.W (V c main_arg1) (V c main_arg2) (V c main_arg3) (V c main_arg4) :=
  (dat0 (F := Ideal) V c).arrAt_eq_of_cover 4 (Cert.Dora.W (V c main_arg1) (V c main_arg2) (V c main_arg3) (V c main_arg4))
    (fun t _ => flushed0_4_eq V c t) cover0_arr

end Cert.ReferenceIdeal.Hand

end
-- ==== Proof.RefRegion1Data.lean ====
/-
  Region 1 of the reference, the blocked product with bias: its windows' blocks, the accumulator its body
  carries from one grid point to the next, and the proof data of its pipeline, all stated at the contents
  `V` that the region finds in the buffers when it is entered.

  The 512 grid points are the triples (i, j, kk) of 16 × 8 × 4, kk innermost, so a point's position n has
  kk = n % 4. At a point the body adds to a 256×256 accumulator the product of x's block (i, kk), 256×512,
  with the transpose of W's block (j, kk), 256×512. The accumulator restarts from zero when kk = 0, and
  when kk = 3 the output block (i, j) receives the accumulator plus block j of the bias row spread over
  the 256 rows. At the other points the output block's buffer is not touched.
-/
import proofs.«151641_g2000709426913694_pallasbulk_956_15_alg».proof.Proof.Gen.ReferenceIdeal.Launch
import proofs.«151641_g2000709426913694_pallasbulk_956_15_alg».proof.Proof.Gen.ReferenceIdeal.Skeleton
import proofs.«151641_g2000709426913694_pallasbulk_956_15_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it: x's block (i, kk) for
    window 0, W's block (j, kk) for window 1, the bias row's block (0, j) for window 2. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- The accumulator after the body at position `n`: the product of the point's x and W blocks added to zero
    when kk = n % 4 = 0, and to the accumulator the point before left otherwise. -/
def acc1 (c : Dev nD) : (n : ℕ) → n < cfg1.N → Vec F S256x256 .f32
  | 0, hn => Gen.k1_pay2 (Gen.k1_pay1 (F := F)) (iblk1 V c 0 ⟨0, hn⟩) (iblk1 V c 1 ⟨0, hn⟩)
  | n + 1, hn =>
    if h0 : (n + 1) % 4 = 0 then
      Gen.k1_pay2 (Gen.k1_pay1 (F := F)) (iblk1 V c 0 ⟨n + 1, hn⟩) (iblk1 V c 1 ⟨n + 1, hn⟩)
    else
      Gen.k1_pay2 (acc1 c n (Nat.lt_of_succ_lt hn)) (iblk1 V c 0 ⟨n + 1, hn⟩) (iblk1 V c 1 ⟨n + 1, hn⟩)

/-- At a point with kk = 0 the accumulator is the point's product added to zero. -/
theorem acc1_zero (c : Dev nD) (t : Fin cfg1.N) (h0 : t.val % 4 = 0) :
    acc1 V c t.val t.isLt = Gen.k1_pay2 (Gen.k1_pay1 (F := F)) (iblk1 V c 0 t) (iblk1 V c 1 t) := by
  obtain ⟨n, hn⟩ := t
  cases n with
  | zero => exact rfl
  | succ n => exact (dif_pos h0).trans rfl

/-- At a point with kk ≠ 0 it is the point's product added to what the point before left. -/
theorem acc1_succ (c : Dev nD) (t : Fin cfg1.N) (h0 : ¬t.val % 4 = 0) :
    acc1 V c t.val t.isLt
      = Gen.k1_pay2 (acc1 V c (t.val - 1) (Nat.lt_of_le_of_lt (Nat.sub_le _ _) t.isLt)) (iblk1 V c 0 t) (iblk1 V c 1 t) := by
  obtain ⟨n, hn⟩ := t
  cases n with
  | zero => exact (by exfalso; (try dsimp only at h0); exact absurd (Nat.zero_mod _) h0)
  | succ n => exact (dif_neg h0).trans rfl

/-! ## The invariant: the accumulator buffer between points -/

/-- The accumulator's buffer, whole. -/
abbrev scM1_0 : Memref sig .tc .vmem S256x256 .f32 := Memref.whole cc1_scratch0

/-- The core's scoped buffers other than this region's staging buffers and its accumulator, each at some
    contents: the other region's staging buffers, which this region never opens. -/
abbrev restBut1 (c : Dev nD) : sProp 𝕄 :=
  Pipeline.scopedRestBut (Ix := Unit) (Name := ℕ) (U := UR sig nD τ) (Lvl := ℕ) (Val := Elt F) spec1 c [cc1_scratch0]

/-- The scoped rest of the region, split at its accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ restBut1 (F := F) c) :=
  Pipeline.scopedRest_split_of_list spec1 c [cc1_scratch0] (by decide) (by decide)

/-- What the launch hands the region, with the accumulator as a memref owned at some contents. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

/-- The region's invariant before position `n`: before the first point what the launch hands it; afterwards
    the same with the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(owns (c : Thread nD τ) scM1_0 fullShare (acc1 V c n hn) ∗ restBut1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare (acc1 V c (n - 1) (by omega)) ∗ restBut1 (F := F) c) ∗ (∃ r, prngReg c r)) := by
  cases n with
  | zero => exact absurd rfl hz
  | succ n => rfl

/-! ## The pipeline's proof data -/

/-- The proof data of the region's pipeline on core `c`: the arrays as the region finds them; after the body
    at point `t` each input's buffer at its block, and the output's buffer at the accumulator after that
    point plus the bias block spread over the rows (consulted only where kk = 3: elsewhere the output window
    is idle and the body leaves in it what it found); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => Gen.k1_pay3 (acc1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = Gen.k1_pay3 (acc1 V c t.val t.isLt) (iblk1 V c 2 t) := by dsimp only [dat1]

end Cert.ReferenceIdeal.Hand

end
-- ==== Proof.RefRegion1Runs.lean ====
/-
  What the three runs of region 1's body share: the two conditions on the innermost coordinate kk in closed
  form (kk = 0: the accumulator restarts; kk = 3: the output block is stored), where the output window is
  idle and where it is written back, the staging memrefs the body is called with at a point, and the fact
  that each input window's buffer holds its block at every point, fetched there or not.
-/
import proofs.«151641_g2000709426913694_pallasbulk_956_15_alg».proof.Proof.RefRegion1Data

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the body's first `scf.if` (restart the accumulator), from the grid coordinates. -/
abbrev cond1_0 (i : grid1.Coords) : Prop :=
  (Scalar.cmpi .ne (Scalar.extui (Scalar.cmpi .eq (BitVec.ofNat 32 (i 2).val) 0#32)) 0#32) = 1#1
/-- It holds exactly where kk = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (store the output block). -/
abbrev cond1_1 (i : grid1.Coords) : Prop := k1_cond2 i = 1#1
/-- It holds exactly where kk = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The output window is idle exactly where kk ≠ 3. -/
theorem hidle1_3 : ∀ t : Fin cfg1.N, cfg1.idle 3 (cfg1.grid.coords t) = true ↔ ¬t.val % 4 = 3 :=
  (by decide +kernel : ∀ t : Fin grid1.N, idle1 3 (grid1.coords t) = true ↔ ¬t.val % 4 = 3)

/-! ## The staging memrefs at a point -/

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)

/-- One staging buffer of the output window, through which its contents are stated. -/
abbrev VO1_3 : View sig .tc .vmem S256x256 .f32 := (Memref.whole cc1_stg3_0 : Memref sig .tc .vmem S256x256 .f32).view
/-- The accumulator as a view. -/
abbrev VS1_0 : View sig .tc .vmem S256x256 .f32 := (scM1_0 : Memref sig .tc .vmem S256x256 .f32).view

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Cert.ReferenceIdeal.Hand

end
-- ==== Proof.RefRegion1RunZ.lean ====
/-
  The body of region 1 at a point with kk = 0, run whole: it overwrites the accumulator with zero, reads it
  back, adds the product of the x block and the W block, and stores the sum. The bias block's and the
  output block's buffers are not touched and do not appear. The accumulator's buffer ends with the list of
  its two stores, last first: the sum, then the zero fill it was stored over.
-/
import proofs.«151641_g2000709426913694_pallasbulk_956_15_alg».proof.Proof.RefRegion1Runs

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body leaves in the accumulator when kk = 0, with the proof that from the x and W blocks'
    buffers at `x0`, `x1` and the accumulator's at anything the body runs to a state with the inputs as they
    were and the accumulator written with those stores. -/
noncomputable def run1_Z (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S256x512 .f32) (x1 : Vec F S256x512 .f32) :
    { LS0 : List (View.Piece (Elt F) S256x256 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, fun E K => ?run⟩
  case run =>
    simp only [Gen.cc1__matmul_bias_kernel_eq_skeleton]; unfold Gen.cc1__matmul_bias_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.ReferenceIdeal.Hand

end
-- ==== Proof.RefRegion1RunM.lean ====
/-
  The body of region 1 at a point with kk = 1 or 2, run whole: it reads the accumulator the point before
  left, adds the product of the x block and the W block, and stores the sum. The bias block's and the output
  block's buffers are not touched and do not appear.
-/
import proofs.«151641_g2000709426913694_pallasbulk_956_15_alg».proof.Proof.RefRegion1RunZ

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body leaves in the accumulator when kk is 1 or 2, with the proof that from the x and W
    blocks' buffers at `x0`, `x1` and the accumulator's at `xs0` the body runs to a state with the inputs as
    they were and the accumulator written with those stores. -/
noncomputable def run1_M (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S256x512 .f32) (x1 : Vec F S256x512 .f32) (xs0 : Vec F S256x256 .f32) :
    { LS0 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg7 fullShare xs0
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, fun E K => ?run⟩
  case run =>
    simp only [Gen.cc1__matmul_bias_kernel_eq_skeleton]; unfold Gen.cc1__matmul_bias_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.ReferenceIdeal.Hand

end
-- ==== Proof.RefRegion1RunL.lean ====
/-
  The body of region 1 at a point with kk = 3, run whole: it reads the accumulator the point before left,
  adds the product of the x block and the W block, stores the sum, reads it back, adds the bias block spread
  over the rows, and stores that into the output block's buffer.
-/
import proofs.«151641_g2000709426913694_pallasbulk_956_15_alg».proof.Proof.RefRegion1RunM

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body leaves in the output block's buffer and in the accumulator when kk = 3, with the
    proof that from the x, W and bias blocks' buffers at `x0`, `x1`, `x2`, the output's at anything and the
    accumulator's at `xs0` the body runs to a state with the inputs as they were and the output and the
    accumulator written with those stores. -/
noncomputable def run1_L (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) :
    Σ' (L3 : List (View.Piece (Elt F) S256x256 .f32)), { LS0 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [Gen.cc1__matmul_bias_kernel_eq_skeleton]; unfold Gen.cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.ReferenceIdeal.Hand

end
-- ==== Proof.RefRegion1Pieces.lean ====
/-
  What the three runs of region 1's body leave, as values: the accumulator after a point is the product of
  the point's x and W blocks added to zero (kk = 0) or to what it held (kk ≠ 0); the output block at kk = 3
  is that accumulator plus the bias block spread over the rows. Each buffer's stores cover it, and the last
  store into a buffer is of the whole block, so the buffer reads back as that store's payload; a load of a
  whole block reads the block.
-/
import proofs.«151641_g2000709426913694_pallasbulk_956_15_alg».proof.Proof.RefRegion1RunL
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block access. -/
theorem off2_zero : (![0, 0] : Fin 2 → ℕ) = fun _ => 0 := by
  funext a; fin_cases a <;> rfl

/-! ## kk = 0 -/

/-- The accumulator's stores at kk = 0 cover it. -/
theorem scover1_Z (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S256x512 .f32) (x1 : Vec F S256x512 .f32) (y : S256x256.Idx) :
    ∃ pc ∈ (run1_Z c i arg3 harg3 arg4 harg4 arg5 harg5 arg6 harg6 arg7 harg7 hc0 hc1 x0 x1).1, y ∈ pc.1.set :=
  View.cover_of_tiledL (run1_Z c i arg3 harg3 arg4 harg4 arg5 harg5 arg6 harg6 arg7 harg7 hc0 hc1 x0 x1).1 S256x256.size (by sl_kernel_rfl) y

/-- They leave the product of the blocks added to zero. -/
theorem spiece1_Z (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S256x512 .f32) (x1 : Vec F S256x512 .f32) :
    View.canon (run1_Z c i arg3 harg3 arg4 harg4 arg5 harg5 arg6 harg6 arg7 harg7 hc0 hc1 x0 x1).1 = Gen.k1_pay2 (Gen.k1_pay1 (F := F)) x0 x1 := by
  unfold run1_Z; dsimp only; sl_unfold_words
  refine (View.canon_cons_unit_zero (S := S256x256) off2_zero _ _ _).trans ?_
  simp only [View.readCov_unit_zero (S := S256x256) _ off2_zero, View.readAt_eq_ld, harg3.read_unread, harg4.read_unread,
    View.ld_unit_zero (S := S256x512) off2_zero]

/-! ## kk = 1, 2 -/

/-- The accumulator's store at kk = 1, 2 covers it. -/
theorem scover1_M (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S256x512 .f32) (x1 : Vec F S256x512 .f32) (xs0 : Vec F S256x256 .f32) (y : S256x256.Idx) :
    ∃ pc ∈ (run1_M c i arg3 harg3 arg4 harg4 arg5 harg5 arg6 harg6 arg7 harg7 hc0 hc1 x0 x1 xs0).1, y ∈ pc.1.set :=
  View.cover_of_tiledL (run1_M c i arg3 harg3 arg4 harg4 arg5 harg5 arg6 harg6 arg7 harg7 hc0 hc1 x0 x1 xs0).1 S256x256.size (by sl_kernel_rfl) y

/-- It leaves the product of the blocks added to what the accumulator held. -/
theorem spiece1_M (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S256x512 .f32) (x1 : Vec F S256x512 .f32) (xs0 : Vec F S256x256 .f32) :
    View.canon (run1_M c i arg3 harg3 arg4 harg4 arg5 harg5 arg6 harg6 arg7 harg7 hc0 hc1 x0 x1 xs0).1 = Gen.k1_pay2 xs0 x0 x1 := by
  unfold run1_M; dsimp only; sl_unfold_words
  refine (View.canon_unit_zero (S := S256x256) off2_zero _ _).trans ?_
  simp only [View.readAt_eq_ld, harg3.read_unread, harg4.read_unread, harg7.read_unread,
    View.ld_unit_zero (S := S256x512) off2_zero, View.ld_unit_zero (S := S256x256) off2_zero]

/-! ## kk = 3 -/

/-- The accumulator's store at kk = 3 covers it. -/
theorem scover1_L (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) (y : S256x256.Idx) :
    ∃ pc ∈ (run1_L c i arg3 harg3 arg4 harg4 arg5 harg5 arg6 harg6 arg7 harg7 hc0 hc1 x0 x1 x2 xs0).2.1, y ∈ pc.1.set :=
  View.cover_of_tiledL (run1_L c i arg3 harg3 arg4 harg4 arg5 harg5 arg6 harg6 arg7 harg7 hc0 hc1 x0 x1 x2 xs0).2.1 S256x256.size (by sl_kernel_rfl) y

/-- It leaves the product of the blocks added to what the accumulator held. -/
theorem spiece1_L (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) :
    View.canon (run1_L c i arg3 harg3 arg4 harg4 arg5 harg5 arg6 harg6 arg7 harg7 hc0 hc1 x0 x1 x2 xs0).2.1 = Gen.k1_pay2 xs0 x0 x1 := by
  unfold run1_L; dsimp only; sl_unfold_words
  refine (View.canon_unit_zero (S := S256x256) off2_zero _ _).trans ?_
  simp only [View.readAt_eq_ld, harg3.read_unread, harg4.read_unread, harg7.read_unread,
    View.ld_unit_zero (S := S256x512) off2_zero, View.ld_unit_zero (S := S256x256) off2_zero]

/-- The output block's store at kk = 3 covers it. -/
theorem cover1_L (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) (y : S256x256.Idx) :
    ∃ pc ∈ (run1_L c i arg3 harg3 arg4 harg4 arg5 harg5 arg6 harg6 arg7 harg7 hc0 hc1 x0 x1 x2 xs0).1, y ∈ pc.1.set :=
  View.cover_of_tiledL (run1_L c i arg3 harg3 arg4 harg4 arg5 harg5 arg6 harg6 arg7 harg7 hc0 hc1 x0 x1 x2 xs0).1 S256x256.size (by sl_kernel_rfl) y

/-- It leaves the new accumulator plus the bias block spread over the rows. -/
theorem piece1_L (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S1x256 .f32) (xs0 : Vec F S256x256 .f32) :
    View.canon (run1_L c i arg3 harg3 arg4 harg4 arg5 harg5 arg6 harg6 arg7 harg7 hc0 hc1 x0 x1 x2 xs0).1 = Gen.k1_pay3 (Gen.k1_pay2 xs0 x0 x1) x2 := by
  unfold run1_L; dsimp only; sl_unfold_words
  refine (View.canon_unit_zero (S := S256x256) off2_zero _ _).trans ?_
  simp only [View.readCov_unit_zero (S := S256x256) _ off2_zero, View.readAt_eq_ld, harg3.read_unread, harg4.read_unread,
    harg5.read_unread, harg7.read_unread,
    View.ld_unit_zero (S := S256x512) off2_zero, View.ld_unit_zero (S := S256x256) off2_zero,
    View.ld_unit_zero (S := S1x256) off2_zero]

end Cert.ReferenceIdeal.Hand

end
-- ==== Proof.RefRegion1Body.lean ====
/-
  Region 1 of the reference: the obligation its pipeline's proof data owes the body, at every grid point,
  and the two ends of the region's invariant. A point's innermost coordinate kk = position % 4 selects one of
  three runs of the body; each leaves the accumulator at the value the proof data names for that point, and
  the output block's buffer either at the block the proof data names (kk = 3, where it is written back) or
  as it was found (elsewhere, where the window is idle).
-/
import proofs.«151641_g2000709426913694_pallasbulk_956_15_alg».proof.Proof.RefRegion1Pieces

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output window where it is idle and where it is live -/

/-- Where kk ≠ 3 the output window is idle and not written back: the body leaves in it what it found. -/
theorem leavesExact1_3_idle (c : Dev nD) (t : Fin cfg1.N) (h3 : ¬t.val % 4 = 3) :
    ((dat1 V c).leavesExact 3 t : sProp 𝕄)
      = iprop(∃ d, owns (c : Thread nD τ) (ms1_3 t) fullShare ((dat1 V c).before 3 t d)) :=
  (dat1 V c).leavesExact_idle 3 t ((hidle1_3 t).mpr h3)
    (Bool.eq_false_iff.mpr fun h => h3 ((Gen.flush1_3 t).mp h))

/-- Where kk = 3 it is live: the body leaves the block it stores. -/
theorem leavesExact1_3_live (c : Dev nD) (t : Fin cfg1.N) (h3 : t.val % 4 = 3) :
    ((dat1 V c).leavesExact 3 t : sProp 𝕄)
      = owns (c : Thread nD τ) (ms1_3 t) fullShare ((dat1 V c).after 3 t) := by
  unfold Dat.leavesExact
  rw [Bool.eq_false_iff.mpr fun h => (hidle1_3 t).mp h h3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns: the output window at what the body stores where it is live, as found where idle. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t)

set_option maxHeartbeats 6400000 in
/-- The body at any point. The inputs' buffers hold their blocks; kk decides the case. Where kk = 0 the
    accumulator is handed over at anything (at the first point) or at what the point before left, and comes
    back at the blocks' product added to zero; where kk ≠ 0 it is handed over at what the point before left
    and comes back with the product added; where kk = 3 the output's buffer, handed over at anything, comes
    back at the accumulator plus the bias; elsewhere it is handed back untouched. The core owes nothing. -/
theorem sound_body1 (c : Dev nD) (t : Fin cfg1.N) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2]
  rw [show (dat1 V c).Φ t.succ = PhiS1 V c (t.val + 1) t.isLt from rfl, PhiS1_succ]
  have hN : t.val < 512 := lt_of_lt_of_eq t.isLt (show cfg1.N = 512 from Gen.N_1)
  by_cases h0 : t.val % 4 = 0
  · have h3 : ¬t.val % 4 = 3 := by omega
    rw [leavesExact1_3_idle V c t h3, acc1_zero V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, H3⟩
      iapply ((run1_Z c (grid1.coords t) _ _ _ _ _ _ _ _ _ _ ((hcond1_0 t).mpr h0) (fun h => h3 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_Z c _ _ _ _ _ _ _ _ _ _ _ _ _ _ _)).trans (spiece1_Z c _ _ _ _ _ _ _ _ _ _ _ _ _ _ _)
          iexact HR
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨⟨HS0, HR⟩, Hg⟩, Ho, ⟨%d0, H0⟩, ⟨%d1, H1⟩, ⟨%d2, H2⟩, H3⟩
      iapply ((run1_Z c (grid1.coords t) _ _ _ _ _ _ _ _ _ _ ((hcond1_0 t).mpr h0) (fun h => h3 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_Z c _ _ _ _ _ _ _ _ _ _ _ _ _ _ _)).trans (spiece1_Z c _ _ _ _ _ _ _ _ _ _ _ _ _ _ _)
          iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [acc1_succ V c t h0, PhiS1_castSucc V c t, PhiS1_pos V c _ _ hz]
    by_cases h3 : t.val % 4 = 3
    · rw [leavesExact1_3_live V c t h3, after1_3, acc1_succ V c t h0]
      iintro ⟨⟨⟨HS0, HR⟩, Hg⟩, Ho, ⟨%d0, H0⟩, ⟨%d1, H1⟩, ⟨%d2, H2⟩, ⟨%d3, H3⟩⟩
      iapply ((run1_L c (grid1.coords t) _ _ _ _ _ _ _ _ _ _ (fun h => h0 ((hcond1_0 t).mp h)) ((hcond1_1 t).mpr h3) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_L c _ _ _ _ _ _ _ _ _ _ _ _ _ _ _ _ _)).trans (spiece1_L c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (cover1_L c _ _ _ _ _ _ _ _ _ _ _ _ _ _ _ _ _)).trans (piece1_L c _ _ _ _ _ _ _ _ _ _ _ _ _ _ _ _ _)
    · rw [leavesExact1_3_idle V c t h3]
      iintro ⟨⟨⟨HS0, HR⟩, Hg⟩, Ho, ⟨%d0, H0⟩, ⟨%d1, H1⟩, ⟨%d2, H2⟩, H3⟩
      iapply ((run1_M c (grid1.coords t) _ _ _ _ _ _ _ _ _ _ (fun h => h0 ((hcond1_0 t).mp h)) (fun h => h3 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_M c _ _ _ _ _ _ _ _ _ _ _ _ _ _ _ _)).trans (spiece1_M c _ _ _ _ _ _ _ _ _ _ _ _ _ _ _ _)
          iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := Gen.N_1; omega)

end Cert.ReferenceIdeal.Hand

end
-- ==== Proof.RefRegion1ValueBody.lean ====
/-
  The arithmetic of one grid point of the blocked product with bias, read entry by entry over the extended reals.

  At a point the body holds a 256×256 accumulator, a 256×512 block x of the inputs and a 256×512 block w of the
  weight.  Entry (p, q) of the new accumulator is the old entry plus Σ_k x(p, k) · w(q, k): row p of x against
  row q of w.  The accumulator restarts from the zero block, whose entries are 0.  The output block is the
  accumulator plus the bias block, one row b spread over the 256 rows: entry (p, q) gains b(0, q).
-/
import proofs.«151641_g2000709426913694_pallasbulk_956_15_alg».proof.Proof.Gen.ReferenceIdeal.Skeleton
import proofs.«151641_g2000709426913694_pallasbulk_956_15_alg».proof.Proof.LibRowsDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Hand

open Idealize.ShloMosaic Idealize.ShloMosaic.ValueIdx

/-- The block the accumulator restarts from is zero at every entry. -/
theorem pay1_apply (p q : Fin 256) : Gen.k1_pay1 (F := Ideal) (ix2 p q) = 0 := by
  unfold Gen.k1_pay1
  rw [shapeCast_self]
  exact Ideal.ofBits_zero_f32

/-- One step of the accumulation: entry (p, q) gains Σ_k x(p, k) · w(q, k). -/
theorem pay2_apply (acc : FVec Ideal S256x256 .f32) (x w : FVec Ideal S256x512 .f32) (p q : Fin 256) :
    Gen.k1_pay2 acc x w (ix2 p q) = acc (ix2 p q) + ∑ k : Fin 512, x (ix2 p k) * w (ix2 q k) := by
  unfold Gen.k1_pay2
  rw [shapeCast_self, shapeCast_self, shapeCast_self]
  show acc (ix2 p q) + FloatOps.matmul (Cert.RowsDot.dims Gen.dot_S256x512_S256x512_S256x256_1_1_0_0_n_n_wf) none x w
      (constant (F := Ideal) ⟨2, ![256, 256]⟩ .f32 0x00000000#32) (ix2 p q) = _
  rw [Cert.RowsDot.matmul_zero_apply]

/-- The output block: entry (p, q) of the accumulator plus the bias row's entry q. -/
theorem pay3_apply (acc : FVec Ideal S256x256 .f32) (bias : FVec Ideal S1x256 .f32) (p q : Fin 256) :
    Gen.k1_pay3 acc bias (ix2 p q) = acc (ix2 p q) + bias (ix2 0 q) := by
  unfold Gen.k1_pay3
  rw [shapeCast_self]
  show acc (ix2 p q) + broadcastTo ⟨2, ![256, 256]⟩ bias Gen.broadcasts_S1x256_S256x256 (ix2 p q) = _
  rw [broadcastTo_1b_ab_apply]

end Cert.ReferenceIdeal.Hand

end
-- ==== Proof.RefRegion1ValueBlocks.lean ====
/-
  Where the blocked product's windows sit in their arrays.

  The 512 grid points are the triples (i, j, kk) of 16 × 8 × 4 with kk innermost, so the point at position n has
  i = n / 32, j = n / 4 % 8 and kk = n % 4.  There the inputs' window is block (i, kk) of x in blocks of 256×512,
  the weight's window is block (j, kk) of W in blocks of 256×512, the bias window is block (0, j) of the bias row
  in blocks of 1×256, and the output window is block (i, j) of the result in blocks of 256×256.  An entry of a
  block sits in its array at the block's index times the block's size plus its own coordinate, on each axis:
  entry (p, k') of the inputs' block is x(256·i + p, 512·kk + k'), and likewise for the others.
-/
import proofs.«151641_g2000709426913694_pallasbulk_956_15_alg».proof.Proof.RefRegion1Data
import Idealize.ShloMosaic.Lib.ValueIdx
import Idealize.ShloMosaic.Lib.Pipeline.Value

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)

variable {F : FTy → Type} [FloatOps F]
-- the TensorCore's buffer contents when the region is entered
variable (V : (c : Dev nD) → (b : Ref sig .tc) → Buf (Elt F) ((c : Thread nD τ).loc b))

/-- The block indices of the four windows at the point of position n: (n / 32, n % 4) for the inputs,
    (n / 4 % 8, n % 4) for the weight, (0, n / 4 % 8) for the bias row, (n / 32, n / 4 % 8) for the output.
    Decided over the 512 points. -/
theorem idx_facts1 : ∀ t : Fin cfg1.N,
    win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = 0 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

/-- Entry (p, k') of the inputs' block at a point is x(256·i + p, 512·kk + k'). -/
theorem iblk1_0_apply (c : Dev nD) (t : Fin cfg1.N) (p : Fin 256) (k' : Fin 512) (r : Fin 4096) (k : Fin 2048)
    (hr : r.val = 256 * (t.val / 32) + p.val) (hk : k.val = 512 * (t.val % 4) + k'.val) :
    iblk1 V c 0 t (ix2 p k') = V c main_v0 (ix2 r k) := by
  obtain ⟨e0, e1, -⟩ := idx_facts1 t
  unfold iblk1
  rw [View.read_apply]
  show V c main_v0 _ = V c main_v0 _
  congr 1
  funext a
  apply Fin.ext
  match a with
  | ⟨0, _⟩ => show win1_0.index t 0 * 256 + 1 * p.val = r.val; omega
  | ⟨1, _⟩ => show win1_0.index t 1 * 512 + 1 * k'.val = k.val; omega

/-- Entry (q, k') of the weight's block at a point is W(256·j + q, 512·kk + k'). -/
theorem iblk1_1_apply (c : Dev nD) (t : Fin cfg1.N) (q : Fin 256) (k' : Fin 512) (d : Fin 2048) (k : Fin 2048)
    (hd : d.val = 256 * (t.val / 4 % 8) + q.val) (hk : k.val = 512 * (t.val % 4) + k'.val) :
    iblk1 V c 1 t (ix2 q k') = V c main_v1 (ix2 d k) := by
  obtain ⟨-, -, e0, e1, -⟩ := idx_facts1 t
  unfold iblk1
  rw [View.read_apply]
  show V c main_v1 _ = V c main_v1 _
  congr 1
  funext a
  apply Fin.ext
  match a with
  | ⟨0, _⟩ => show win1_1.index t 0 * 256 + 1 * q.val = d.val; omega
  | ⟨1, _⟩ => show win1_1.index t 1 * 512 + 1 * k'.val = k.val; omega

/-- Entry (0, q) of the bias block at a point is the bias row's entry 256·j + q. -/
theorem iblk1_2_apply (c : Dev nD) (t : Fin cfg1.N) (q : Fin 256) (d : Fin 2048)
    (hd : d.val = 256 * (t.val / 4 % 8) + q.val) :
    iblk1 V c 2 t (ix2 0 q) = V c main_v2 (ix2 0 d) := by
  obtain ⟨-, -, -, -, e0, e1, -⟩ := idx_facts1 t
  unfold iblk1
  rw [View.read_apply]
  show V c main_v2 _ = V c main_v2 _
  congr 1
  funext a
  apply Fin.ext
  match a with
  | ⟨0, _⟩ => show win1_2.index t 0 * 1 + 1 * 0 = 0; omega
  | ⟨1, _⟩ => show win1_2.index t 1 * 256 + 1 * q.val = d.val; omega

end Cert.ReferenceIdeal.Hand

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.RefRegion1ValueAcc.lean ====
/-
  The accumulator of the blocked product in closed form.

  Fix an output block (i, j).  The four points (i, j, 0), …, (i, j, 3) visit the four 512-column slabs of rows
  256·i … 256·i + 255 of x and of rows 256·j … 256·j + 255 of W in order, and each adds to entry (p, q) of the
  accumulator the 512 products of its slab of row 256·i + p of x against row 256·j + q of W.  Starting from zero at
  kk = 0, after the point kk the entry therefore holds the first 512·(kk + 1) terms of Σ_k x(256·i + p, k) ·
  W(256·j + q, k): a partial sum growing by one block per point.  Only that addition over the extended reals is
  associative and commutative is used; nothing is assumed finite.
-/
import proofs.«151641_g2000709426913694_pallasbulk_956_15_alg».proof.Proof.RefRegion1ValueBody
import proofs.«151641_g2000709426913694_pallasbulk_956_15_alg».proof.Proof.RefRegion1ValueBlocks
import proofs.«151641_g2000709426913694_pallasbulk_956_15_alg».proof.Proof.Spec
import proofs.«151641_g2000709426913694_pallasbulk_956_15_alg».proof.Proof.LibBlockSum
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)

/-- Row r of x against row d of W, term by term: the k-th product x(r, k) · W(d, k). -/
def term (X : Cert.Dora.SX.Idx → EReal) (Wm : Cert.Dora.SV.Idx → EReal) (r : Fin 4096) (d : Fin 2048) (k : Fin 2048) : EReal :=
  X (ix2 r k) * Wm (ix2 d k)

/-- One step of the accumulation, over any blocks: if the accumulator's entry (p, q) holds the first a terms of
    row r of x against row d of W, and row p of the block x' and row q of the block w' are the next 512 entries of
    those rows, then after the step the entry holds the first a + 512 terms. -/
theorem step_apply (acc : FVec Ideal S256x256 .f32) (x' w' : FVec Ideal S256x512 .f32)
    (X : Cert.Dora.SX.Idx → EReal) (Wm : Cert.Dora.SV.Idx → EReal) (p q : Fin 256) (r : Fin 4096) (d : Fin 2048)
    (a : ℕ) (ha : a + 512 ≤ 2048)
    (hx : ∀ k' : Fin 512, x' (ix2 p k') = X (ix2 r ⟨a + k'.val, Nat.lt_of_lt_of_le (Nat.add_lt_add_left k'.isLt a) ha⟩))
    (hw : ∀ k' : Fin 512, w' (ix2 q k') = Wm (ix2 d ⟨a + k'.val, Nat.lt_of_lt_of_le (Nat.add_lt_add_left k'.isLt a) ha⟩))
    (hacc : acc (ix2 p q) = Cert.BlockSum.partialSum (term X Wm r d) a) :
    Gen.k1_pay2 (F := Ideal) acc x' w' (ix2 p q) = Cert.BlockSum.partialSum (term X Wm r d) (a + 512) := by
  rw [pay2_apply, hacc, ← Cert.BlockSum.partialSum_add_block (term X Wm r d) a 512 ha]
  refine congrArg (Cert.BlockSum.partialSum (term X Wm r d) a + ·) (Finset.sum_congr rfl fun k' _ => ?_)
  rw [hx k', hw k']
  rfl

variable (V : (c : Dev nD) → (b : Ref sig .tc) → Buf (Elt Ideal) ((c : Thread nD τ).loc b))

/-- The accumulator after the point of position n, with i = n / 32, j = n / 4 % 8 and kk = n % 4: its entry (p, q)
    holds the first 512·(kk + 1) terms of row 256·i + p of x against row 256·j + q of W.  By induction on the
    position: a point with kk = 0 starts from zero, any other adds its 512 terms to what the point before left,
    and that point has the same i and j. -/
theorem acc1_closed (c : Dev nD) (n : ℕ) : ∀ (hn : n < cfg1.N) (p q : Fin 256) (r : Fin 4096) (d : Fin 2048),
    r.val = 256 * (n / 32) + p.val → d.val = 256 * (n / 4 % 8) + q.val →
    acc1 V c n hn (ix2 p q)
      = Cert.BlockSum.partialSum (term (V c main_v0) (V c main_v1) r d) (512 * (n % 4 + 1)) := by
  induction n using Nat.strong_induction_on with
  | _ n ih =>
    intro hn p q r d hr hd
    have hN : cfg1.N = 512 := Gen.N_1
    have h4 : 512 * (n % 4 + 1) = 512 * (n % 4) + 512 := by omega
    rw [h4]
    by_cases h0 : n % 4 = 0
    · refine (congrFun (acc1_zero V c ⟨n, hn⟩ h0) (ix2 p q)).trans ?_
      refine step_apply _ (iblk1 V c 0 ⟨n, hn⟩) (iblk1 V c 1 ⟨n, hn⟩) (V c main_v0) (V c main_v1) p q r d
        (512 * (n % 4)) (by omega)
        (fun k' => iblk1_0_apply V c ⟨n, hn⟩ p k' r _ hr rfl) (fun k' => iblk1_1_apply V c ⟨n, hn⟩ q k' d _ hd rfl) ?_
      rw [pay1_apply]
      exact ((congrArg (Cert.BlockSum.partialSum _) (show 512 * (n % 4) = 0 by omega)).trans
        (Cert.BlockSum.partialSum_zero _)).symm
    · refine (congrFun (acc1_succ V c ⟨n, hn⟩ h0) (ix2 p q)).trans ?_
      refine step_apply _ (iblk1 V c 0 ⟨n, hn⟩) (iblk1 V c 1 ⟨n, hn⟩) (V c main_v0) (V c main_v1) p q r d
        (512 * (n % 4)) (by omega)
        (fun k' => iblk1_0_apply V c ⟨n, hn⟩ p k' r _ hr rfl) (fun k' => iblk1_1_apply V c ⟨n, hn⟩ q k' d _ hd rfl) ?_
      exact (ih (n - 1) (by omega) (by omega) p q r d (by omega) (by omega)).trans
        (congrArg (Cert.BlockSum.partialSum _) (by omega))

end Cert.ReferenceIdeal.Hand

end
-- ==== Proof.RefRegion1Value.lean ====
/-
  The result array of the blocked product with bias is the layer's output.

  A point with kk = 3 closes the sum of its output block (i, j): its accumulator holds, at (p, q), all 2048 terms of
  row 256·i + p of x against row 256·j + q of W, and the block written back adds the bias row's entry 256·j + q.
  That is entry (256·i + p, 256·j + q) of Y(x, W, b) = (Σ_k x(r, k) · W(d, k)) + b(d).  The 16 × 8 blocks written
  back at those points tile the 4096×2048 array — entry (r, d) lies in block (r / 256, d / 256) — so after the
  last point the array holds Y of the arrays the region found.
-/
import proofs.«151641_g2000709426913694_pallasbulk_956_15_alg».proof.Proof.RefRegion1ValueAcc
import proofs.«151641_g2000709426913694_pallasbulk_956_15_alg».proof.Proof.Spec
import proofs.«151641_g2000709426913694_pallasbulk_956_15_alg».proof.Proof.LibBlockSum
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- What a point with kk = 3 writes back is its 256×256 block of the layer's output: entry (p, q) of block (i, j)
    is the whole sum of row 256·i + p of x against row 256·j + q of W, plus the bias row's entry 256·j + q. -/
theorem flushed1_3 (c : Dev nD) (t : Fin cfg1.N) (hf : (cfg1.win 3).flush t = true) :
    (dat1 (F := Ideal) V c).flushed 3 t
      = ((cfg1.win 3).blk t).view.read (Elt Ideal) (Cert.Dora.Y (V c main_v0) (V c main_v1) (V c main_v2)) := by
  have h3 : t.val % 4 = 3 := (Gen.flush1_3 t).mp hf
  have hN : cfg1.N = 512 := Gen.N_1
  have ht : t.val < 512 := hN ▸ t.isLt
  obtain ⟨-, -, -, -, -, -, e0, e1⟩ := idx_facts1 t
  show (cfg1.win 3).cut (grid1.coords t) ((dat1 V c).after 3 t) = _
  rw [after1_3]
  funext j
  obtain ⟨p, q, rfl⟩ : ∃ (p q : Fin 256), j = ix2 p q := ⟨j 0, j 1, eq_ix2 j⟩
  rw [View.read_apply]
  have hp := p.isLt
  have hq := q.isLt
  have he : ((cfg1.win 3).blk t).view.emb (ix2 p q)
      = (ix2 (⟨256 * (t.val / 32) + p.val, by omega⟩ : Fin 4096) (⟨256 * (t.val / 4 % 8) + q.val, by omega⟩ : Fin 2048)
          : S4096x2048.Idx) := by
    funext a
    apply Fin.ext
    match a with
    | ⟨0, _⟩ => show win1_3.index t 0 * 256 + 1 * p.val = 256 * (t.val / 32) + p.val; omega
    | ⟨1, _⟩ => show win1_3.index t 1 * 256 + 1 * q.val = 256 * (t.val / 4 % 8) + q.val; omega
  show Gen.k1_pay3 (acc1 V c t.val t.isLt) (iblk1 V c 2 t) (ix2 p q)
    = Cert.Dora.Y (V c main_v0) (V c main_v1) (V c main_v2) (((cfg1.win 3).blk t).view.emb (ix2 p q))
  rw [he]
  refine (pay3_apply (acc1 V c t.val t.isLt) (iblk1 V c 2 t) p q).trans ?_
  rw [acc1_closed V c t.val t.isLt p q ⟨256 * (t.val / 32) + p.val, by omega⟩ ⟨256 * (t.val / 4 % 8) + q.val, by omega⟩ rfl rfl,
    iblk1_2_apply V c t q ⟨256 * (t.val / 4 % 8) + q.val, by omega⟩ rfl,
    show 512 * (t.val % 4 + 1) = 2048 by omega, Cert.BlockSum.partialSum_full]
  rfl

/-- Every entry (r, d) of the 4096×2048 result lies in the block written back by the point with i = r / 256,
    j = d / 256 and kk = 3. -/
theorem cover1_3 (c : Dev nD) (i : S4096x2048.Idx) :
    ∃ t : Fin cfg1.N, (cfg1.win 3).flush t = true ∧ i ∈ ((cfg1.win 3).blk t).view.set := by
  have hN : cfg1.N = 512 := Gen.N_1
  have h0 : (i 0).val < 4096 := (i 0).isLt
  have h1 : (i 1).val < 2048 := (i 1).isLt
  obtain ⟨t, ht⟩ : ∃ t : Fin cfg1.N, t.val = ((i 0).val / 256 * 8 + (i 1).val / 256) * 4 + 3 :=
    ⟨⟨((i 0).val / 256 * 8 + (i 1).val / 256) * 4 + 3, by omega⟩, rfl⟩
  obtain ⟨-, -, -, -, -, -, e0, e1⟩ := idx_facts1 t
  refine ⟨t, (Gen.flush1_3 t).mpr (by omega), ?_⟩
  show i ∈ ((View.whole main_v3).slice (win1_3.rect t)).set
  rw [View.set_slice_whole, Rect.mem_set_unit]
  intro a
  match a with
  | ⟨0, _⟩ =>
    show win1_3.index t 0 * 256 ≤ (i 0).val ∧ (i 0).val < win1_3.index t 0 * 256 + 256
    omega
  | ⟨1, _⟩ =>
    show win1_3.index t 1 * 256 ≤ (i 1).val ∧ (i 1).val < win1_3.index t 1 * 256 + 256
    omega

/-- The result array of the blocked product after the region's last point is the layer's output Y of the arrays
    the region found. -/
theorem arrAt1_3 (c : Dev nD) :
    (dat1 (F := Ideal) V c).arrAt 3 cfg1.N = Cert.Dora.Y (V c main_v0) (V c main_v1) (V c main_v2) :=
  (dat1 (F := Ideal) V c).arrAt_eq_of_cover 3 (Cert.Dora.Y (V c main_v0) (V c main_v1) (V c main_v2))
    (flushed1_3 V c) (cover1_3 c)

end Cert.ReferenceIdeal.Hand

end
-- ==== Proof.lean ====
/-
  The kernel computes a linear layer whose weight is a low-rank-corrected matrix with every column rescaled to a given
  magnitude: with V' = V + B·A, W(d, k) = V'(d, k) · (m(k) · rsqrt(Σ_d' V'(d', k)²)) and Y(i, d) = Σ_k x(i, k) · W(d, k)
  + b(d), on x recast from 8×512×2048 to 4096×2048 and back.

  The kernel is one launch over eight blocks of 512 rows: the first grid point fills a scratch copy of W, four panels
  of 512 columns at a time, every point multiplies its rows of x against the whole of W and adds b.  The reference is
  two launches: one writes W panel by panel to an array, the other tiles Y into 256×256 blocks and sums the products
  over four blocks of 512 columns into an accumulator before adding b.  Over the extended reals a change of float
  format is the identity and a sum may be taken in any grouping, so both end with the same array: the four-block
  sum is the whole sum by associativity and commutativity of addition alone, and no finiteness of the inputs is used.

  The kernel's frames are the generated ones; its value is read off the generated run (the scratch holds W after every
  point, by induction on the point).  The reference's run is assembled from its two regions' proof data; its value is
  read back through the fold of its five stretches.  The ideal pass rewrote nothing, so the kernel's idealization is
  its own text.
-/
import proofs.«151641_g2000709426913694_pallasbulk_956_15_alg».proof.Defs
import proofs.«151641_g2000709426913694_pallasbulk_956_15_alg».proof.Proof.Gen.Kernel
import proofs.«151641_g2000709426913694_pallasbulk_956_15_alg».proof.Proof.Gen.Kernel.Frame
import proofs.«151641_g2000709426913694_pallasbulk_956_15_alg».proof.Proof.Gen.KernelIdeal
import proofs.«151641_g2000709426913694_pallasbulk_956_15_alg».proof.Proof.Gen.KernelIdeal.Frame
import proofs.«151641_g2000709426913694_pallasbulk_956_15_alg».proof.Proof.Gen.ReferenceIdeal
import proofs.«151641_g2000709426913694_pallasbulk_956_15_alg».proof.Proof.Gen.Pre_finite_inputs
import proofs.«151641_g2000709426913694_pallasbulk_956_15_alg».proof.Proof.KValue
import proofs.«151641_g2000709426913694_pallasbulk_956_15_alg».proof.Proof.RefValue
import proofs.«151641_g2000709426913694_pallasbulk_956_15_alg».proof.Proof.RefRegion0
import proofs.«151641_g2000709426913694_pallasbulk_956_15_alg».proof.Proof.RefRegion0Value
import proofs.«151641_g2000709426913694_pallasbulk_956_15_alg».proof.Proof.RefRegion1Body
import proofs.«151641_g2000709426913694_pallasbulk_956_15_alg».proof.Proof.RefRegion1Value
import Idealize.ShloMosaic.Adequacy
import Idealize.ShloMosaic.Init

set_option maxRecDepth 16384

noncomputable section

namespace Cert.Proof

open Idealize.ShloMosaic Idealize.ShloMosaic.TcCoe Idealize.SL.Sem

/-! ## The reference's run, at its two regions' proof data -/

namespace Ref

open Cert.ReferenceIdeal Cert.ReferenceIdeal.Gen Cert.ReferenceIdeal.Hand

variable (m : (ℓ : Loc nD τ sig) → Buf (Elt Ideal) ℓ) (ρ : Dev nD → PrngReg)

/-- The first region's proof data at what it finds: the launch memory with x recast. -/
abbrev d0 (c : Dev nD) := dat0 (F := Ideal) (V1 m ρ) c
/-- The second region's proof data at what it finds: the first region's output written, the offsets recast. -/
abbrev d1 (c : Dev nD) := dat1 (F := Ideal) (V3 m ρ (d0 m ρ)) c

/-- Every weakly fair execution of the reference terminates with every buffer outside the kernels' scratch space
    at the last fold of the run. -/
theorem run : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ (d0 m ρ) (d1 m ρ) c b) :=
  run_all m ρ (d0 m ρ) (d1 m ρ)
    (fun c w => A_eq0 (V1 m ρ) c w) (fun _ _ => rfl) (fun _ _ => rfl) (fun _ _ => rfl) (fun c => body_obligation0 (V1 m ρ) c)
    (fun _ => .rfl) (fun _ => .rfl)
    (fun c w => A_eq1 (V3 m ρ (d0 m ρ)) c w) (fun _ _ => rfl) (fun _ _ => rfl) (fun _ _ => rfl)
    (fun c => body_obligation1 (V3 m ρ (d0 m ρ)) c) (fun c => hin1 (V3 m ρ (d0 m ρ)) c) (fun c => hout1 (V3 m ρ (d0 m ρ)) c)

/-- The reference's result is the specification's, of the launch memory's arguments. -/
theorem result (c : Dev nD) :
    W5 m ρ (d0 m ρ) (d1 m ρ) c (Proc.devRef .tc main_v4)
      = Cert.Dora.result Facts₀.shapeCasts_S8x512x2048_S4096x2048 Facts₀.shapeCasts_S2048_S1x2048 Facts₀.shapeCasts_S4096x2048_S8x512x2048
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  W5_result m ρ (d0 m ρ) (d1 m ρ) (fun c w => A_eq0 (V1 m ρ) c w) c (arrAt0_4 (V1 m ρ) c) (arrAt1_3 (V3 m ρ (d0 m ρ)) c)

/-- Its argument arrays end as launched. -/
theorem args (c : Dev nD) (r : MemSt nD τ sig (Elt Ideal))
    (h : ∀ b ∈ Pipeline.ucRefs τ sig, r.mem (((c : Thread nD τ)).1, b) = W5 m ρ (d0 m ρ) (d1 m ρ) c b) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5) :=
  have hA := fun c w => A_eq0 (V1 m ρ) c w
  ⟨(h _ (mem_uc main_arg0 (by decide))).trans (W5_main_arg0 m ρ (d0 m ρ) (d1 m ρ) hA c),
   (h _ (mem_uc main_arg1 (by decide))).trans (W5_main_arg1 m ρ (d0 m ρ) (d1 m ρ) hA c),
   (h _ (mem_uc main_arg2 (by decide))).trans (W5_main_arg2 m ρ (d0 m ρ) (d1 m ρ) hA c),
   (h _ (mem_uc main_arg3 (by decide))).trans (W5_main_arg3 m ρ (d0 m ρ) (d1 m ρ) hA c),
   (h _ (mem_uc main_arg4 (by decide))).trans (W5_main_arg4 m ρ (d0 m ρ) (d1 m ρ) hA c),
   (h _ (mem_uc main_arg5 (by decide))).trans (W5_main_arg5 m ρ (d0 m ρ) (d1 m ρ) hA c)⟩

end Ref

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun r h c => Ref.args m ρ c r.2 (h c)) (Ref.run m ρ)

/-- The two idealized programs, from memories agreeing on the arguments, end with the specification's result of
    those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun r h c => ⟨?_, Ref.args m' ρ' c r.2 (h c)⟩) (Ref.run m' ρ')
  refine ((h c _ (Cert.ReferenceIdeal.Hand.mem_uc Cert.ReferenceIdeal.main_v4 (by decide))).trans (Ref.result m' ρ' c)).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
